-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S64x128 : Shape := ⟨2, ![64, 128]⟩
abbrev S64 : Shape := ⟨1, ![64]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64x128 .f32) (main_arg8 : FVec F S64x128 .f32) (main_arg9 : FVec F S64 .f32) (main_v33 : IVec S_ 1) : IVec S_ 1 :=
  let main_v34 : FVec F S64x128 .f32 := Host.absf main_arg7
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S64x128 .f32 := Host.absf main_arg8
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg4 : FVec F S128x128 .f32) (main_arg5 : FVec F S128x128 .f32) (main_arg6 : FVec F S128 .f32) (main_arg7 : FVec F S64x128 .f32) (main_arg8 : FVec F S64x128 .f32) (main_arg9 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_v33

def fn {F : FTy → Type} [FloatOps F] (main_arg0 : FVec F S100000x128 .f32) (main_arg1 : FVec F S128x128 .f32) (main_arg2 : FVec F S128x128 .f32) (main_arg3 : FVec F S128 .f32) (main_arg4 : FVec F S128x128 .f32) (main_arg5 : FVec F S128x128 .f32) (main_arg6 : FVec F S128 .f32) (main_arg7 : FVec F S64x128 .f32) (main_arg8 : FVec F S64x128 .f32) (main_arg9 : FVec F S64 .f32) (main_arg10 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S100000x128 : Shape := ⟨2, ![100000, 128]⟩
abbrev S128x128 : Shape := ⟨2, ![128, 128]⟩
abbrev S128 : Shape := ⟨1, ![128]⟩
abbrev S64x128 : Shape := ⟨2, ![64, 128]⟩
abbrev S64 : Shape := ⟨1, ![64]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S5000x128 : Shape := ⟨2, ![5000, 128]⟩
abbrev S1x128 : Shape := ⟨2, ![1, 128]⟩
abbrev S100000x64 : Shape := ⟨2, ![100000, 64]⟩
abbrev S5000x64 : Shape := ⟨2, ![5000, 64]⟩
abbrev S1x64 : Shape := ⟨2, ![1, 64]⟩

abbrev nBuf : Space → Nat
  | .hbm => 73
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S64x128, .f32⟩
  | .hbm, ⟨8, _⟩ => ⟨S64x128, .f32⟩
  | .hbm, ⟨9, _⟩ => ⟨S64, .f32⟩
  | .hbm, ⟨10, _⟩ => ⟨S2x1600000, .i32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x128, .f32⟩
  | .hbm, ⟨66, _⟩ => ⟨S_, .f32⟩
  | .hbm, ⟨67, _⟩ => ⟨S100000x128, .f32⟩
  | .hbm, ⟨68, _⟩ => ⟨S1600000x1, .i32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S64x128, .f32⟩
  | .local _ .vmem, ⟨23, _⟩ => ⟨S64x128, .f32⟩
  | .local _ .vmem, ⟨24, _⟩ => ⟨S64, .f32⟩
  | .local _ .vmem, ⟨25, _⟩ => ⟨S5000x64, .f32⟩
  | .local _ .vmem, ⟨26, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_7 : Ref sig .tc := ⟨.hbm, 57, rfl⟩
abbrev main_v37 : Ref sig .tc := ⟨.hbm, 58, rfl⟩
abbrev main_v38 : Ref sig .tc := ⟨.hbm, 59, rfl⟩
abbrev main_c_8 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S64x128_S64x128_0_0 : ∀ a, (![0, 0] : Fin 2 → Nat) a + S64x128.size a ≤ S64x128.size a
  h_S64x128 : 0 < S64x128.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_1_0_0_n_n_wf : DotDims.WF S5000x128 S128x128 S5000x128 [1] [1] [0] [0] [] []
  dot_S5000x128_S64x128_S5000x64_1_1_0_0_n_n_wf : DotDims.WF S5000x128 S64x128 S5000x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .f32 = 32 ∨ (Rect.block (s := S64x128) S64x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x128.size a ≤ S64x128.size a
  hwx2_3 : ∀ i : grid2.Coords, EltTy.bits .f32 = 32 ∨ (Rect.block (s := S64x128) S64x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_1_0_0_n_n : DotDims S5000x128 S128x128 S5000x128 where
  lhsContracting := [1]
  rhsContracting := [1]
  lhsNonContracting := [0]
  rhsNonContracting := [0]
  lhsBatch := []
  rhsBatch := []
  wf := dot_S5000x128_S128x128_S5000x128_1_1_0_0_n_n_wf
def dot_S5000x128_S64x128_S5000x64_1_1_0_0_n_n : DotDims S5000x128 S64x128 S5000x64 where
  lhsContracting := [1]
  rhsContracting := [1]
  lhsNonContracting := [0]
  rhsNonContracting := [0]
  lhsBatch := []
  rhsBatch := []
  wf := dot_S5000x128_S64x128_S5000x64_1_1_0_0_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v23) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v36) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S64x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v49) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S64x128 : Shape := ⟨2, ![64, 128]⟩
abbrev S64 : Shape := ⟨1, ![64]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S128x64 : Shape := ⟨2, ![128, 64]⟩
abbrev S100000x64 : Shape := ⟨2, ![100000, 64]⟩
abbrev S1x64 : Shape := ⟨2, ![1, 64]⟩

abbrev nBuf : Space → Nat
  | .hbm => 117
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S64x128, .f32⟩
  | .hbm, ⟨8, _⟩ => ⟨S64x128, .f32⟩
  | .hbm, ⟨9, _⟩ => ⟨S64, .f32⟩
  | .hbm, ⟨10, _⟩ => ⟨S2x1600000, .i32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S_, .f32⟩
  | .hbm, ⟨29, _⟩ => ⟨S1600000x1, .f32⟩
  | .hbm, ⟨30, _⟩ => ⟨S_, .f32⟩
  | .hbm, ⟨31, _⟩ => ⟨S100000x1, .f32⟩
  | .hbm, ⟨32, _⟩ => ⟨S1600000x1, .i32⟩
  | .hbm, ⟨33, _⟩ => ⟨S100000x1, .f32⟩
  | .hbm, ⟨34, _⟩ => ⟨S_, .f32⟩
  | .hbm, ⟨35, _⟩ => ⟨S100000x1, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S128x128, .f32⟩
  | .hbm, ⟨40, _⟩ => ⟨S100000x128, .f32⟩
  | .hbm, ⟨41, _⟩ => ⟨S128x128, .f32⟩
  | .hbm, ⟨42, _⟩ => ⟨S100000x128, .f32⟩
  | .hbm, ⟨43, _⟩ => ⟨S100000x128, .f32⟩
  | .hbm, ⟨44, _⟩ => ⟨S1x128, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S100000x128, .f32⟩
  | .hbm, ⟨49, _⟩ => ⟨S100000x128, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S_, .f32⟩
  | .hbm, ⟨64, _⟩ => ⟨S1600000x1, .f32⟩
  | .hbm, ⟨65, _⟩ => ⟨S_, .f32⟩
  | .hbm, ⟨66, _⟩ => ⟨S100000x1, .f32⟩
  | .hbm, ⟨67, _⟩ => ⟨S1600000x1, .i32⟩
  | .hbm, ⟨68, _⟩ => ⟨S100000x1, .f32⟩
  | .hbm, ⟨69, _⟩ => ⟨S_, .f32⟩
  | .hbm, ⟨70, _⟩ => ⟨S100000x1, .f32⟩
  | .hbm, ⟨71, _⟩ => ⟨S100000x1, .f32⟩
  | .hbm, ⟨72, _⟩ => ⟨S100000x128, .f32⟩
  | .hbm, ⟨73, _⟩ => ⟨S100000x128, .f32⟩
  | .hbm, ⟨74, _⟩ => ⟨S128x128, .f32⟩
  | .hbm, ⟨75, _⟩ => ⟨S100000x128, .f32⟩
  | .hbm, ⟨76, _⟩ => ⟨S128x128, .f32⟩
  | .hbm, ⟨77, _⟩ => ⟨S100000x128, .f32⟩
  | .hbm, ⟨78, _⟩ => ⟨S100000x128, .f32⟩
  | .hbm, ⟨79, _⟩ => ⟨S1x128, .f32⟩
  | .hbm, ⟨80, _⟩ => ⟨S100000x128, .f32⟩
  | .hbm, ⟨81, _⟩ => ⟨S100000x128, .f32⟩
  | .hbm, ⟨82, _⟩ => ⟨S_, .f32⟩
  | .hbm, ⟨83, _⟩ => ⟨S100000x128, .f32⟩
  | .hbm, ⟨84, _⟩ => ⟨S100000x128, .f32⟩
  | .hbm, ⟨85, _⟩ => ⟨S_, .i32⟩
  | .hbm, ⟨86, _⟩ => ⟨S1600000, .i32⟩
  | .hbm, ⟨87, _⟩ => ⟨S1600000, .i1⟩
  | .hbm, ⟨88, _⟩ => ⟨S_, .i32⟩
  | .hbm, ⟨89, _⟩ => ⟨S1600000, .i32⟩
  | .hbm, ⟨90, _⟩ => ⟨S1600000, .i32⟩
  | .hbm, ⟨91, _⟩ => ⟨S1600000, .i32⟩
  | .hbm, ⟨92, _⟩ => ⟨S1600000x1, .i32⟩
  | .hbm, ⟨93, _⟩ => ⟨S1600000x128, .f32⟩
  | .hbm, ⟨94, _⟩ => ⟨S_, .f32⟩
  | .hbm, ⟨95, _⟩ => ⟨S100000x128, .f32⟩
  | .hbm, ⟨96, _⟩ => ⟨S1600000x1, .i32⟩
  | .hbm, ⟨97, _⟩ => ⟨S100000x128, .f32⟩
  | .hbm, ⟨98, _⟩ => ⟨S_, .f32⟩
  | .hbm, ⟨99, _⟩ => ⟨S1600000x1, .f32⟩
  | .hbm, ⟨100, _⟩ => ⟨S_, .f32⟩
  | .hbm, ⟨101, _⟩ => ⟨S100000x1, .f32⟩
  | .hbm, ⟨102, _⟩ => ⟨S1600000x1, .i32⟩
  | .hbm, ⟨103, _⟩ => ⟨S100000x1, .f32⟩
  | .hbm, ⟨104, _⟩ => ⟨S_, .f32⟩
  | .hbm, ⟨105, _⟩ => ⟨S100000x1, .f32⟩
  | .hbm, ⟨106, _⟩ => ⟨S100000x1, .f32⟩
  | .hbm, ⟨107, _⟩ => ⟨S100000x128, .f32⟩
  | .hbm, ⟨108, _⟩ => ⟨S100000x128, .f32⟩
  | .hbm, ⟨109, _⟩ => ⟨S128x64, .f32⟩
  | .hbm, ⟨110, _⟩ => ⟨S100000x64, .f32⟩
  | .hbm, ⟨111, _⟩ => ⟨S128x64, .f32⟩
  | .hbm, ⟨112, _⟩ => ⟨S100000x64, .f32⟩
  | .hbm, ⟨113, _⟩ => ⟨S100000x64, .f32⟩
  | .hbm, ⟨114, _⟩ => ⟨S1x64, .f32⟩
  | .hbm, ⟨115, _⟩ => ⟨S100000x64, .f32⟩
  | .hbm, ⟨116, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_call0_cst : Ref sig .tc := ⟨.hbm, 47, rfl⟩
abbrev main_call0_v0 : Ref sig .tc := ⟨.hbm, 48, rfl⟩
abbrev main_v30 : Ref sig .tc := ⟨.hbm, 49, rfl⟩
abbrev main_c_4 : Ref sig .tc := ⟨.hbm, 50, rfl⟩
abbrev main_v31 : Ref sig .tc := ⟨.hbm, 51, rfl⟩
abbrev main_v32 : Ref sig .tc := ⟨.hbm, 52, rfl⟩
abbrev main_c_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_7 : Ref sig .tc := ⟨.hbm, 63, rfl⟩
abbrev main_v41 : Ref sig .tc := ⟨.hbm, 64, rfl⟩
abbrev main_cst_8 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_9 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_call1_cst : Ref sig .tc := ⟨.hbm, 82, rfl⟩
abbrev main_call1_v0 : Ref sig .tc := ⟨.hbm, 83, rfl⟩
abbrev main_v57 : Ref sig .tc := ⟨.hbm, 84, rfl⟩
abbrev main_c_10 : Ref sig .tc := ⟨.hbm, 85, rfl⟩
abbrev main_v58 : Ref sig .tc := ⟨.hbm, 86, rfl⟩
abbrev main_v59 : Ref sig .tc := ⟨.hbm, 87, rfl⟩
abbrev main_c_11 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_12 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_13 : Ref sig .tc := ⟨.hbm, 98, rfl⟩
abbrev main_v68 : Ref sig .tc := ⟨.hbm, 99, rfl⟩
abbrev main_cst_14 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_15 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel's run with its result named.

  @main is three kernel regions among stretches of host operations. Every weakly fair execution from a memory `m`
  terminates without a fault, and at the end every buffer that is not a kernel's scratch holds what the fold through
  @main's segments computes for it (`Gen.W6`: each host stretch applied to the contents before it, each region's
  output array at what its write-backs leave). Read at the result buffer this names the result; read at an argument
  buffer it is the argument as launched. The frame claim keeps only the second reading; here both are kept.
-/
import proofs.«161550_j70368744177918_1_alg».proof.Proof.PatchedKernelIdealFrame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and every argument as launched: the launch over @main's segments, the last thread state read against the
    final state, the result buffer kept beside the arguments. -/
theorem run : θ_run defs (onTc (τ := τ) (main (F := F))) ⟨m, fun _ => 0, ρ⟩ (fun r => ∀ c : Dev nD,
      r.2.mem ((c.tc : Thread nD τ).loc main_v49) = W6 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v49 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.Run

end
-- ==== Proof.Spec.lean ====
/-
  One layer of the mean-aggregating graph convolution, as a function of arrays on the extended reals.

  For node features `h` (M rows of K numbers), their neighbourhood means `mean` (same shape), two weight matrices
  `Wl`, `Wr` (N rows of K numbers) and a bias `b` (N numbers), the dense update of a layer is, at row `r` and output
  column `j`,
      (Σ_k mean(r,k) · Wl(j,k)  +  Σ_k h(r,k) · Wr(j,k))  +  b(j):
  the mean's product with the transpose of `Wl`, plus the features' product with the transpose of `Wr`, plus the
  bias. The rectifier replaces every entry by its maximum with zero. Both programs compute exactly these sums in this
  association, so no law of the extended reals beyond reading each operation at an entry is needed to join them.
-/
import Idealize.ShloMosaic.Lib.ValueIdx
import Idealize.ShloMosaic.PureOps.Ideal

noncomputable section

open scoped BigOperators

namespace Cert.Sage

open Idealize.ShloMosaic Idealize.ShloMosaic.ValueIdx

/-- The dense update of one layer at entry `(r, j)`: `mean · Wlᵀ + h · Wrᵀ + b`. -/
def dense {M N K : Nat} (h mean : (⟨2, ![M, K]⟩ : Shape).Idx → EReal) (Wl Wr : (⟨2, ![N, K]⟩ : Shape).Idx → EReal)
    (b : (⟨1, ![N]⟩ : Shape).Idx → EReal) : (⟨2, ![M, N]⟩ : Shape).Idx → EReal :=
  fun i => (∑ k : Fin K, mean (ix2 (i 0 : Fin M) k) * Wl (ix2 (i 1 : Fin N) k)
      + ∑ k : Fin K, h (ix2 (i 0 : Fin M) k) * Wr (ix2 (i 1 : Fin N) k)) + b (ix1 (i 1 : Fin N))

theorem dense_apply {M N K : Nat} (h mean : (⟨2, ![M, K]⟩ : Shape).Idx → EReal)
    (Wl Wr : (⟨2, ![N, K]⟩ : Shape).Idx → EReal) (b : (⟨1, ![N]⟩ : Shape).Idx → EReal) (r : Fin M) (j : Fin N) :
    dense h mean Wl Wr b (ix2 r j)
      = (∑ k : Fin K, mean (ix2 r k) * Wl (ix2 j k) + ∑ k : Fin K, h (ix2 r k) * Wr (ix2 j k)) + b (ix1 j) := rfl

/-- The rectifier, entry by entry: the maximum with the number zero (kept as the single-precision word for zero,
    which both programs carry and neither evaluates). -/
def relu {S : Shape} (a : S.Idx → EReal) : S.Idx → EReal := fun i => max (a i) (Ideal.ofBits .f32 0x00000000#32)

theorem relu_apply {S : Shape} (a : S.Idx → EReal) (i : S.Idx) :
    relu a i = max (a i) (Ideal.ofBits .f32 0x00000000#32) := rfl

end Cert.Sage

end
-- ==== Proof.LibMatmulNT.lean ====
/-
  The product of an M×K matrix with the transpose of an N×K matrix on the extended reals, and the hardware matrix
  product with the dimension numbers "contract axis 1 of both operands" read at one entry: into a zero accumulator it
  is the plain sum over the K contracted positions of the products of the two rows' entries.
-/
import Idealize.ShloMosaic.Lib.ValueIdx
import Idealize.ShloMosaic.PureOps.Ideal.Laws

noncomputable section

open scoped BigOperators

namespace Cert.Lib.MatmulNT

open Idealize.ShloMosaic Idealize.ShloMosaic.ValueIdx

/-- `x · wᵀ`: entry (r, n) is the sum over k of `x (r, k) * w (n, k)`. -/
def mulNT {M N K : Nat} (x : (⟨2, ![M, K]⟩ : Shape).Idx → EReal) (w : (⟨2, ![N, K]⟩ : Shape).Idx → EReal) :
    (⟨2, ![M, N]⟩ : Shape).Idx → EReal :=
  fun i => ∑ c : Fin K, x (ix2 (i 0 : Fin M) c) * w (ix2 (i 1 : Fin N) c)

theorem mulNT_apply {M N K : Nat} (x : (⟨2, ![M, K]⟩ : Shape).Idx → EReal) (w : (⟨2, ![N, K]⟩ : Shape).Idx → EReal)
    (a : Fin M) (b : Fin N) : mulNT x w (ix2 a b) = ∑ c : Fin K, x (ix2 a c) * w (ix2 b c) := rfl

/-- A matrix product contracting axis 1 of an M×K operand with axis 1 of an N×K operand, accumulated into the zero
    splat, read at entry (a, b) at the ideal values: the contraction index has one axis of extent K, and at position c
    the left operand is read at (a, c), the right one at (b, c). -/
theorem matmul_zero_nt_apply {M N K : Nat} {φ₁ φ₂ : FTy}
    (wf : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (a : Fin M) (b : Fin N) :
    FloatOps.matmul (⟨[1], [1], [0], [0], [], [], wf⟩ : DotDims ⟨2, ![M, K]⟩ ⟨2, ![N, K]⟩ ⟨2, ![M, N]⟩) prec A B
        (constant ⟨2, ![M, N]⟩ .f32 0x00000000#32) (ix2 a b)
      = ∑ c : Fin K, A (ix2 a c) * B (ix2 b c) := by
  rw [Ideal.matmul_constant_zero_apply,
    ← Equiv.sum_comp (contrEquiv1 (⟨[1], [1], [0], [0], [], [], wf⟩ : DotDims ⟨2, ![M, K]⟩ ⟨2, ![N, K]⟩ ⟨2, ![M, N]⟩) K rfl rfl).symm]
  refine Finset.sum_congr rfl fun c _ => ?_
  have hc := contrEquiv1_symm_val
    (⟨[1], [1], [0], [0], [], [], wf⟩ : DotDims ⟨2, ![M, K]⟩ ⟨2, ![N, K]⟩ ⟨2, ![M, N]⟩) K rfl rfl c
  have hl : (⟨[1], [1], [0], [0], [], [], wf⟩ : DotDims ⟨2, ![M, K]⟩ ⟨2, ![N, K]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact hc
  have hr : (⟨[1], [1], [0], [0], [], [], wf⟩ : DotDims ⟨2, ![M, K]⟩ ⟨2, ![N, K]⟩ ⟨2, ![M, N]⟩).rhsIdx (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact hc
  rw [hl, hr]

end Cert.Lib.MatmulNT

end
-- ==== Proof.Payload.lean ====
/-
  The three kernel bodies, each read at one entry of the block it stores.

  A body loads a block of 5000 rows of the node features, the same rows of the neighbourhood means, the two weight
  matrices and the bias, and stores `mean · Wlᵀ + h · Wrᵀ + b` (rectified in the first two layers) for those rows: the
  dense update of `Spec.lean` on the block. The two hardware matrix products contract the last axis of both operands and
  accumulate into zero, so each is the plain sum over the 128 features; the bias vector is laid out as one row and
  repeated down the block.
-/
import proofs.«161550_j70368744177918_1_alg».proof.Proof.Gen.KernelIdeal.Skeleton
import proofs.«161550_j70368744177918_1_alg».proof.Proof.Spec
import proofs.«161550_j70368744177918_1_alg».proof.Proof.LibMatmulNT
import Idealize.ShloMosaic.Lib.Pipeline.Value
import Idealize.ShloMosaic.Lib.ValueLayout
import Idealize.ShloMosaic.Lib.ValueIdx

noncomputable section

open scoped BigOperators

namespace Cert.KernelIdeal.Body

open Cert.KernelIdeal Cert.KernelIdeal.Gen Idealize.ShloMosaic Idealize.ShloMosaic.ValueIdx Idealize.ShloMosaic.Pipeline
open Cert.Sage Cert.Lib.MatmulNT

/-- Region 0's body at entry `(p, q)` of its block: the mean block's row `p` against row `q` of the left weights, plus
    the feature block's row `p` against row `q` of the right weights, plus entry `q` of the bias, rectified. The changes of
    float format are the identity on the extended reals and both matrix products start from the zero accumulator. -/
theorem pay0_apply (x0 x1 : S5000x128.Idx → EReal) (x2 x3 : S128x128.Idx → EReal) (x4 : S128.Idx → EReal)
    (p : Fin 5000) (q : Fin 128) :
    k0_pay1 (F := Ideal) x0 x1 x2 x3 x4 (ix2 p q)
      = relu (dense (M := 5000) (N := 128) (K := 128) x0 x1 x2 x3 x4) (ix2 p q) := by
  have hA : FloatOps.matmul (F := Ideal) dot_S5000x128_S128x128_S5000x128_1_1_0_0_n_n none
      (truncf .bf16 (shapeCast S5000x128 x1 shapeCasts_S5000x128_S5000x128) bitsLt_bf16_f32) (truncf .bf16 x2 bitsLt_bf16_f32)
      (constant S5000x128 .f32 0x00000000#32) (ix2 p q) = ∑ k : Fin 128, x1 (ix2 p k) * x2 (ix2 q k) := by
    refine (matmul_zero_nt_apply (M := 5000) (N := 128) (K := 128) dot_S5000x128_S128x128_S5000x128_1_1_0_0_n_n.wf none _ _ p q).trans ?_
    rw [shapeCast_self]
    rfl
  have hB : FloatOps.matmul (F := Ideal) dot_S5000x128_S128x128_S5000x128_1_1_0_0_n_n none
      (truncf .bf16 x0 bitsLt_bf16_f32) (truncf .bf16 x3 bitsLt_bf16_f32)
      (constant S5000x128 .f32 0x00000000#32) (ix2 p q) = ∑ k : Fin 128, x0 (ix2 p k) * x3 (ix2 q k) := by
    refine (matmul_zero_nt_apply (M := 5000) (N := 128) (K := 128) dot_S5000x128_S128x128_S5000x128_1_1_0_0_n_n.wf none _ _ p q).trans ?_
    rfl
  have hC : (broadcastTo S5000x128 (shapeCast S1x128 x4 shapeCasts_S128_S1x128) broadcasts_S1x128_S5000x128 (ix2 p q) : EReal) = x4 (ix1 q) := by
    rw [broadcastTo_1b_ab_apply, shapeCast_a_1a_apply]
  show max (FloatOps.matmul (F := Ideal) dot_S5000x128_S128x128_S5000x128_1_1_0_0_n_n none
      (truncf .bf16 (shapeCast S5000x128 x1 shapeCasts_S5000x128_S5000x128) bitsLt_bf16_f32) (truncf .bf16 x2 bitsLt_bf16_f32)
      (constant S5000x128 .f32 0x00000000#32) (ix2 p q)
    + FloatOps.matmul (F := Ideal) dot_S5000x128_S128x128_S5000x128_1_1_0_0_n_n none
      (truncf .bf16 x0 bitsLt_bf16_f32) (truncf .bf16 x3 bitsLt_bf16_f32)
      (constant S5000x128 .f32 0x00000000#32) (ix2 p q)
    + broadcastTo S5000x128 (shapeCast S1x128 x4 shapeCasts_S128_S1x128) broadcasts_S1x128_S5000x128 (ix2 p q))
    (Ideal.ofBits .f32 0x00000000#32) = _
  rw [hA, hB, hC]
  rfl

/-- Region 1's body at entry `(p, q)` of its block: the mean block's row `p` against row `q` of the left weights, plus
    the feature block's row `p` against row `q` of the right weights, plus entry `q` of the bias, rectified. The changes of
    float format are the identity on the extended reals and both matrix products start from the zero accumulator. -/
theorem pay1_apply (x0 x1 : S5000x128.Idx → EReal) (x2 x3 : S128x128.Idx → EReal) (x4 : S128.Idx → EReal)
    (p : Fin 5000) (q : Fin 128) :
    k1_pay1 (F := Ideal) x0 x1 x2 x3 x4 (ix2 p q)
      = relu (dense (M := 5000) (N := 128) (K := 128) x0 x1 x2 x3 x4) (ix2 p q) := by
  have hA : FloatOps.matmul (F := Ideal) dot_S5000x128_S128x128_S5000x128_1_1_0_0_n_n none
      (truncf .bf16 (shapeCast S5000x128 x1 shapeCasts_S5000x128_S5000x128) bitsLt_bf16_f32) (truncf .bf16 x2 bitsLt_bf16_f32)
      (constant S5000x128 .f32 0x00000000#32) (ix2 p q) = ∑ k : Fin 128, x1 (ix2 p k) * x2 (ix2 q k) := by
    refine (matmul_zero_nt_apply (M := 5000) (N := 128) (K := 128) dot_S5000x128_S128x128_S5000x128_1_1_0_0_n_n.wf none _ _ p q).trans ?_
    rw [shapeCast_self]
    rfl
  have hB : FloatOps.matmul (F := Ideal) dot_S5000x128_S128x128_S5000x128_1_1_0_0_n_n none
      (truncf .bf16 (shapeCast S5000x128 x0 shapeCasts_S5000x128_S5000x128) bitsLt_bf16_f32) (truncf .bf16 x3 bitsLt_bf16_f32)
      (constant S5000x128 .f32 0x00000000#32) (ix2 p q) = ∑ k : Fin 128, x0 (ix2 p k) * x3 (ix2 q k) := by
    refine (matmul_zero_nt_apply (M := 5000) (N := 128) (K := 128) dot_S5000x128_S128x128_S5000x128_1_1_0_0_n_n.wf none _ _ p q).trans ?_
    rw [shapeCast_self]
    rfl
  have hC : (broadcastTo S5000x128 (shapeCast S1x128 x4 shapeCasts_S128_S1x128) broadcasts_S1x128_S5000x128 (ix2 p q) : EReal) = x4 (ix1 q) := by
    rw [broadcastTo_1b_ab_apply, shapeCast_a_1a_apply]
  show max (FloatOps.matmul (F := Ideal) dot_S5000x128_S128x128_S5000x128_1_1_0_0_n_n none
      (truncf .bf16 (shapeCast S5000x128 x1 shapeCasts_S5000x128_S5000x128) bitsLt_bf16_f32) (truncf .bf16 x2 bitsLt_bf16_f32)
      (constant S5000x128 .f32 0x00000000#32) (ix2 p q)
    + FloatOps.matmul (F := Ideal) dot_S5000x128_S128x128_S5000x128_1_1_0_0_n_n none
      (truncf .bf16 (shapeCast S5000x128 x0 shapeCasts_S5000x128_S5000x128) bitsLt_bf16_f32) (truncf .bf16 x3 bitsLt_bf16_f32)
      (constant S5000x128 .f32 0x00000000#32) (ix2 p q)
    + broadcastTo S5000x128 (shapeCast S1x128 x4 shapeCasts_S128_S1x128) broadcasts_S1x128_S5000x128 (ix2 p q))
    (Ideal.ofBits .f32 0x00000000#32) = _
  rw [hA, hB, hC]
  rfl

/-- Region 2's body at entry `(p, q)` of its block: the mean block's row `p` against row `q` of the left weights, plus
    the feature block's row `p` against row `q` of the right weights, plus entry `q` of the bias. The changes of
    float format are the identity on the extended reals and both matrix products start from the zero accumulator. -/
theorem pay2_apply (x0 x1 : S5000x128.Idx → EReal) (x2 x3 : S64x128.Idx → EReal) (x4 : S64.Idx → EReal)
    (p : Fin 5000) (q : Fin 64) :
    k2_pay1 (F := Ideal) x0 x1 x2 x3 x4 (ix2 p q)
      = dense (M := 5000) (N := 64) (K := 128) x0 x1 x2 x3 x4 (ix2 p q) := by
  have hA : FloatOps.matmul (F := Ideal) dot_S5000x128_S64x128_S5000x64_1_1_0_0_n_n none
      (truncf .bf16 (shapeCast S5000x128 x1 shapeCasts_S5000x128_S5000x128) bitsLt_bf16_f32) (truncf .bf16 x2 bitsLt_bf16_f32)
      (constant S5000x64 .f32 0x00000000#32) (ix2 p q) = ∑ k : Fin 128, x1 (ix2 p k) * x2 (ix2 q k) := by
    refine (matmul_zero_nt_apply (M := 5000) (N := 64) (K := 128) dot_S5000x128_S64x128_S5000x64_1_1_0_0_n_n.wf none _ _ p q).trans ?_
    rw [shapeCast_self]
    rfl
  have hB : FloatOps.matmul (F := Ideal) dot_S5000x128_S64x128_S5000x64_1_1_0_0_n_n none
      (truncf .bf16 (shapeCast S5000x128 x0 shapeCasts_S5000x128_S5000x128) bitsLt_bf16_f32) (truncf .bf16 x3 bitsLt_bf16_f32)
      (constant S5000x64 .f32 0x00000000#32) (ix2 p q) = ∑ k : Fin 128, x0 (ix2 p k) * x3 (ix2 q k) := by
    refine (matmul_zero_nt_apply (M := 5000) (N := 64) (K := 128) dot_S5000x128_S64x128_S5000x64_1_1_0_0_n_n.wf none _ _ p q).trans ?_
    rw [shapeCast_self]
    rfl
  have hC : (broadcastTo S5000x64 (shapeCast S1x64 x4 shapeCasts_S64_S1x64) broadcasts_S1x64_S5000x64 (ix2 p q) : EReal) = x4 (ix1 q) := by
    rw [broadcastTo_1b_ab_apply, shapeCast_a_1a_apply]
  show FloatOps.matmul (F := Ideal) dot_S5000x128_S64x128_S5000x64_1_1_0_0_n_n none
      (truncf .bf16 (shapeCast S5000x128 x1 shapeCasts_S5000x128_S5000x128) bitsLt_bf16_f32) (truncf .bf16 x2 bitsLt_bf16_f32)
      (constant S5000x64 .f32 0x00000000#32) (ix2 p q)
    + FloatOps.matmul (F := Ideal) dot_S5000x128_S64x128_S5000x64_1_1_0_0_n_n none
      (truncf .bf16 (shapeCast S5000x128 x0 shapeCasts_S5000x128_S5000x128) bitsLt_bf16_f32) (truncf .bf16 x3 bitsLt_bf16_f32)
      (constant S5000x64 .f32 0x00000000#32) (ix2 p q)
    + broadcastTo S5000x64 (shapeCast S1x64 x4 shapeCasts_S64_S1x64) broadcasts_S1x64_S5000x64 (ix2 p q) = _
  rw [hA, hB, hC]
  rfl

end Cert.KernelIdeal.Body

end
-- ==== Proof.Region.lean ====
/-
  What each kernel region leaves in its output array, as one function of the arrays it found.

  A region walks twenty blocks of 5000 rows. At point `t` its body reads rows 5000·t … 5000·t + 4999 of the features
  and of the means, the whole weight matrices and the whole bias, and writes the dense update of those rows back to
  the same rows of the output. The blocks tile the output array, so after the region the array is the dense update
  (`Spec.lean`) of the whole arrays, entry by entry.
-/
import proofs.«161550_j70368744177918_1_alg».proof.Proof.PatchedKernelIdealFrame
import proofs.«161550_j70368744177918_1_alg».proof.Proof.Payload
import Idealize.ShloMosaic.Lib.Pipeline.Value
import Idealize.ShloMosaic.Lib.ValueIdx

set_option maxRecDepth 16384

noncomputable section

open scoped BigOperators

namespace Cert.KernelIdeal.Region

open Cert.KernelIdeal Cert.KernelIdeal.Gen Idealize.ShloMosaic Idealize.ShloMosaic.TcCoe Idealize.ShloMosaic.ValueIdx
open Idealize.ShloMosaic.Pipeline Idealize.SL.Sem
open Cert.Sage Cert.KernelIdeal.Body

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The dense update at a row of a block is the dense update at the row of the whole arrays the block's row is, when
    the rows read agree entry by entry. -/
theorem dense_congr {M N K M' N' : Nat} (h mean : (⟨2, ![M, K]⟩ : Shape).Idx → EReal)
    (Wl Wr : (⟨2, ![N, K]⟩ : Shape).Idx → EReal) (b : (⟨1, ![N]⟩ : Shape).Idx → EReal)
    (h' mean' : (⟨2, ![M', K]⟩ : Shape).Idx → EReal) (Wl' Wr' : (⟨2, ![N', K]⟩ : Shape).Idx → EReal)
    (b' : (⟨1, ![N']⟩ : Shape).Idx → EReal) (r : Fin M) (j : Fin N) (i : (⟨2, ![M', N']⟩ : Shape).Idx)
    (hm : ∀ k : Fin K, mean (ix2 r k) = mean' (ix2 (i 0 : Fin M') k))
    (hh : ∀ k : Fin K, h (ix2 r k) = h' (ix2 (i 0 : Fin M') k))
    (hl : ∀ k : Fin K, Wl (ix2 j k) = Wl' (ix2 (i 1 : Fin N') k))
    (hr : ∀ k : Fin K, Wr (ix2 j k) = Wr' (ix2 (i 1 : Fin N') k))
    (hb : b (ix1 j) = b' (ix1 (i 1 : Fin N'))) :
    dense h mean Wl Wr b (ix2 r j) = dense h' mean' Wl' Wr' b' i := by
  show (∑ k : Fin K, mean (ix2 r k) * Wl (ix2 j k) + ∑ k : Fin K, h (ix2 r k) * Wr (ix2 j k)) + b (ix1 j)
    = (∑ k : Fin K, mean' (ix2 (i 0 : Fin M') k) * Wl' (ix2 (i 1 : Fin N') k)
      + ∑ k : Fin K, h' (ix2 (i 0 : Fin M') k) * Wr' (ix2 (i 1 : Fin N') k)) + b' (ix1 (i 1 : Fin N'))
  simp only [hm, hh, hl, hr, hb]

/-- Rectifying equal numbers gives equal numbers. -/
theorem relu_congr {S S' : Shape} (a : S.Idx → EReal) (a' : S'.Idx → EReal) (x : S.Idx) (y : S'.Idx) (e : a x = a' y) :
    relu a x = relu a' y := congrArg (fun z => max z (Ideal.ofBits .f32 0x00000000#32)) e

/-! ## Region 0 -/

/-- Layer 0's dense update, rectified, of the arrays as region 0 finds them. -/
def G0 (c : Dev nD) : S100000x128.Idx → EReal :=
  relu (dense (M := 100000) (N := 128) (K := 128) (V c main_arg0) (V c main_v22) (V c main_arg1) (V c main_arg2) (V c main_arg3))

/-- The printed index maps over the grid: the feature, mean and output windows take block `t` of rows at point `t`;
    the weights and the bias are whole. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- WHAT POINT `t` WRITES BACK is block `t` of `G0`: row `p` of the block is row `5000·t + p` of the arrays, and the
    body's sums run over whole rows of the features, the means and the weights. -/
theorem flushed0_eq (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz2]
  simp only [View.ld_unit_zero (S := S5000x128) hz2, View.ld_unit_zero (S := S128x128) hz2, View.ld_unit_zero (S := S128) hz1]
  obtain ⟨e00, e01, e10, e11, e20, e21, e30, e31, e40, e50, e51⟩ := idx_facts0 t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
    = G0 V c (((cfg0.win 5).blk t).view.emb (ix2 p q))
  refine (pay0_apply (iblk0 V c 0 t) (iblk0 V c 1 t) (iblk0 V c 2 t) (iblk0 V c 3 t) (iblk0 V c 4 t) p q).trans ?_
  have r0 : ∀ k : Fin 128, ((cfg0.win 0).blk t).view.emb (ix2 p k)
      = ix2 ((((cfg0.win 5).blk t).view.emb (ix2 p q)) 0) k := fun k => by
    funext a; apply Fin.ext
    match a with
    | ⟨0, _⟩ => show win0_0.index t (0 : Fin 2) * 5000 + 1 * p.val = win0_5.index t (0 : Fin 2) * 5000 + 1 * p.val; omega
    | ⟨1, _⟩ => show win0_0.index t (1 : Fin 2) * 128 + 1 * k.val = k.val; omega
  have r1 : ∀ k : Fin 128, ((cfg0.win 1).blk t).view.emb (ix2 p k)
      = ix2 ((((cfg0.win 5).blk t).view.emb (ix2 p q)) 0) k := fun k => by
    funext a; apply Fin.ext
    match a with
    | ⟨0, _⟩ => show win0_1.index t (0 : Fin 2) * 5000 + 1 * p.val = win0_5.index t (0 : Fin 2) * 5000 + 1 * p.val; omega
    | ⟨1, _⟩ => show win0_1.index t (1 : Fin 2) * 128 + 1 * k.val = k.val; omega
  have r2 : ∀ k : Fin 128, ((cfg0.win 2).blk t).view.emb (ix2 q k)
      = ix2 ((((cfg0.win 5).blk t).view.emb (ix2 p q)) 1) k := fun k => by
    funext a; apply Fin.ext
    match a with
    | ⟨0, _⟩ => show win0_2.index t (0 : Fin 2) * 128 + 1 * q.val = win0_5.index t (1 : Fin 2) * 128 + 1 * q.val; omega
    | ⟨1, _⟩ => show win0_2.index t (1 : Fin 2) * 128 + 1 * k.val = k.val; omega
  have r3 : ∀ k : Fin 128, ((cfg0.win 3).blk t).view.emb (ix2 q k)
      = ix2 ((((cfg0.win 5).blk t).view.emb (ix2 p q)) 1) k := fun k => by
    funext a; apply Fin.ext
    match a with
    | ⟨0, _⟩ => show win0_3.index t (0 : Fin 2) * 128 + 1 * q.val = win0_5.index t (1 : Fin 2) * 128 + 1 * q.val; omega
    | ⟨1, _⟩ => show win0_3.index t (1 : Fin 2) * 128 + 1 * k.val = k.val; omega
  have r4 : ((cfg0.win 4).blk t).view.emb (ix1 q) = ix1 ((((cfg0.win 5).blk t).view.emb (ix2 p q)) 1) := by
    funext a; apply Fin.ext
    match a with
    | ⟨0, _⟩ => show win0_4.index t (0 : Fin 1) * 128 + 1 * q.val = win0_5.index t (1 : Fin 2) * 128 + 1 * q.val; omega
  unfold G0
  refine relu_congr _ _ _ _ ?_
  exact dense_congr _ _ _ _ _ _ _ _ _ _ p q _
    (fun k => congrArg (V c main_v22) (r1 k)) (fun k => congrArg (V c main_arg0) (r0 k))
    (fun k => congrArg (V c main_arg1) (r2 k)) (fun k => congrArg (V c main_arg2) (r3 k)) (congrArg (V c main_arg3) r4)

/-- An index of the output array is in point `t`'s block iff each coordinate is in the block's range on its axis. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v23).slice (win0_5.rect t)).set ↔ _
  rw [View.set_slice_whole, Rect.mem_set_unit]
  exact Iff.rfl

/-- Every row of the output array is in the block of the point numbered by the row's quotient by 5000. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨e00, e01, e10, e11, e20, e21, e30, e31, e40, e50, e51⟩ := idx_facts0 t
  have ht : t.val = (i 0).val / 5000 := rfl
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE OUTPUT ARRAY after region 0: `G0` of the arrays the region found. -/
theorem final0 (c : Dev nD) : (dat0 V c).arrAt 5 cfg0.N = G0 V c :=
  (dat0 V c).arrAt_eq_of_cover 5 (G0 V c) (fun t _ => flushed0_eq V c t) (cover0)

/-! ## Region 1 -/

/-- Layer 1's dense update, rectified, of the arrays as region 1 finds them. -/
def G1 (c : Dev nD) : S100000x128.Idx → EReal :=
  relu (dense (M := 100000) (N := 128) (K := 128) (V c main_v23) (V c main_v35) (V c main_arg4) (V c main_arg5) (V c main_arg6))

/-- The printed index maps over the grid: the feature, mean and output windows take block `t` of rows at point `t`;
    the weights and the bias are whole. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- WHAT POINT `t` WRITES BACK is block `t` of `G1`: row `p` of the block is row `5000·t + p` of the arrays, and the
    body's sums run over whole rows of the features, the means and the weights. -/
theorem flushed1_eq (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S128x128) hz2, View.ld_unit_zero (S := S128) hz1]
  obtain ⟨e00, e01, e10, e11, e20, e21, e30, e31, e40, e50, e51⟩ := idx_facts1 t
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = G1 V c (((cfg1.win 5).blk t).view.emb (ix2 p q))
  refine (pay1_apply (iblk1 V c 0 t) (iblk1 V c 1 t) (iblk1 V c 2 t) (iblk1 V c 3 t) (iblk1 V c 4 t) p q).trans ?_
  have r0 : ∀ k : Fin 128, ((cfg1.win 0).blk t).view.emb (ix2 p k)
      = ix2 ((((cfg1.win 5).blk t).view.emb (ix2 p q)) 0) k := fun k => by
    funext a; apply Fin.ext
    match a with
    | ⟨0, _⟩ => show win1_0.index t (0 : Fin 2) * 5000 + 1 * p.val = win1_5.index t (0 : Fin 2) * 5000 + 1 * p.val; omega
    | ⟨1, _⟩ => show win1_0.index t (1 : Fin 2) * 128 + 1 * k.val = k.val; omega
  have r1 : ∀ k : Fin 128, ((cfg1.win 1).blk t).view.emb (ix2 p k)
      = ix2 ((((cfg1.win 5).blk t).view.emb (ix2 p q)) 0) k := fun k => by
    funext a; apply Fin.ext
    match a with
    | ⟨0, _⟩ => show win1_1.index t (0 : Fin 2) * 5000 + 1 * p.val = win1_5.index t (0 : Fin 2) * 5000 + 1 * p.val; omega
    | ⟨1, _⟩ => show win1_1.index t (1 : Fin 2) * 128 + 1 * k.val = k.val; omega
  have r2 : ∀ k : Fin 128, ((cfg1.win 2).blk t).view.emb (ix2 q k)
      = ix2 ((((cfg1.win 5).blk t).view.emb (ix2 p q)) 1) k := fun k => by
    funext a; apply Fin.ext
    match a with
    | ⟨0, _⟩ => show win1_2.index t (0 : Fin 2) * 128 + 1 * q.val = win1_5.index t (1 : Fin 2) * 128 + 1 * q.val; omega
    | ⟨1, _⟩ => show win1_2.index t (1 : Fin 2) * 128 + 1 * k.val = k.val; omega
  have r3 : ∀ k : Fin 128, ((cfg1.win 3).blk t).view.emb (ix2 q k)
      = ix2 ((((cfg1.win 5).blk t).view.emb (ix2 p q)) 1) k := fun k => by
    funext a; apply Fin.ext
    match a with
    | ⟨0, _⟩ => show win1_3.index t (0 : Fin 2) * 128 + 1 * q.val = win1_5.index t (1 : Fin 2) * 128 + 1 * q.val; omega
    | ⟨1, _⟩ => show win1_3.index t (1 : Fin 2) * 128 + 1 * k.val = k.val; omega
  have r4 : ((cfg1.win 4).blk t).view.emb (ix1 q) = ix1 ((((cfg1.win 5).blk t).view.emb (ix2 p q)) 1) := by
    funext a; apply Fin.ext
    match a with
    | ⟨0, _⟩ => show win1_4.index t (0 : Fin 1) * 128 + 1 * q.val = win1_5.index t (1 : Fin 2) * 128 + 1 * q.val; omega
  unfold G1
  refine relu_congr _ _ _ _ ?_
  exact dense_congr _ _ _ _ _ _ _ _ _ _ p q _
    (fun k => congrArg (V c main_v35) (r1 k)) (fun k => congrArg (V c main_v23) (r0 k))
    (fun k => congrArg (V c main_arg4) (r2 k)) (fun k => congrArg (V c main_arg5) (r3 k)) (congrArg (V c main_arg6) r4)

/-- An index of the output array is in point `t`'s block iff each coordinate is in the block's range on its axis. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v36).slice (win1_5.rect t)).set ↔ _
  rw [View.set_slice_whole, Rect.mem_set_unit]
  exact Iff.rfl

/-- Every row of the output array is in the block of the point numbered by the row's quotient by 5000. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨e00, e01, e10, e11, e20, e21, e30, e31, e40, e50, e51⟩ := idx_facts1 t
  have ht : t.val = (i 0).val / 5000 := rfl
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE OUTPUT ARRAY after region 1: `G1` of the arrays the region found. -/
theorem final1 (c : Dev nD) : (dat1 V c).arrAt 5 cfg1.N = G1 V c :=
  (dat1 V c).arrAt_eq_of_cover 5 (G1 V c) (fun t _ => flushed1_eq V c t) (cover1)

/-! ## Region 2 -/

/-- Layer 2's dense update of the arrays as region 2 finds them. -/
def G2 (c : Dev nD) : S100000x64.Idx → EReal :=
  dense (M := 100000) (N := 64) (K := 128) (V c main_v36) (V c main_v48) (V c main_arg7) (V c main_arg8) (V c main_arg9)

/-- The printed index maps over the grid: the feature, mean and output windows take block `t` of rows at point `t`;
    the weights and the bias are whole. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- WHAT POINT `t` WRITES BACK is block `t` of `G2`: row `p` of the block is row `5000·t + p` of the arrays, and the
    body's sums run over whole rows of the features, the means and the weights. -/
theorem flushed2_eq (c : Dev nD) (t : Fin cfg2.N) :
    (dat2 V c).flushed 5 t = ((cfg2.win 5).blk t).view.read (Elt Ideal) (G2 V c) := by
  show (cfg2.win 5).cut (grid2.coords t) ((dat2 V c).after 5 t) = _
  rw [after2_5]
  unfold out2_5
  rw [View.canon_unit_zero hz2]
  simp only [View.ld_unit_zero (S := S5000x128) hz2, View.ld_unit_zero (S := S64x128) hz2, View.ld_unit_zero (S := S64) hz1]
  obtain ⟨e00, e01, e10, e11, e20, e21, e30, e31, e40, e50, e51⟩ := idx_facts2 t
  funext j
  obtain ⟨p, q, rfl⟩ : ∃ (p : Fin 5000) (q : Fin 64), j = ix2 p q := ⟨j 0, j 1, eq_ix2 j⟩
  show k2_pay1 (F := Ideal) (iblk2 V c 0 t) (iblk2 V c 1 t) (iblk2 V c 2 t) (iblk2 V c 3 t) (iblk2 V c 4 t) (ix2 p q)
    = G2 V c (((cfg2.win 5).blk t).view.emb (ix2 p q))
  refine (pay2_apply (iblk2 V c 0 t) (iblk2 V c 1 t) (iblk2 V c 2 t) (iblk2 V c 3 t) (iblk2 V c 4 t) p q).trans ?_
  have r0 : ∀ k : Fin 128, ((cfg2.win 0).blk t).view.emb (ix2 p k)
      = ix2 ((((cfg2.win 5).blk t).view.emb (ix2 p q)) 0) k := fun k => by
    funext a; apply Fin.ext
    match a with
    | ⟨0, _⟩ => show win2_0.index t (0 : Fin 2) * 5000 + 1 * p.val = win2_5.index t (0 : Fin 2) * 5000 + 1 * p.val; omega
    | ⟨1, _⟩ => show win2_0.index t (1 : Fin 2) * 128 + 1 * k.val = k.val; omega
  have r1 : ∀ k : Fin 128, ((cfg2.win 1).blk t).view.emb (ix2 p k)
      = ix2 ((((cfg2.win 5).blk t).view.emb (ix2 p q)) 0) k := fun k => by
    funext a; apply Fin.ext
    match a with
    | ⟨0, _⟩ => show win2_1.index t (0 : Fin 2) * 5000 + 1 * p.val = win2_5.index t (0 : Fin 2) * 5000 + 1 * p.val; omega
    | ⟨1, _⟩ => show win2_1.index t (1 : Fin 2) * 128 + 1 * k.val = k.val; omega
  have r2 : ∀ k : Fin 128, ((cfg2.win 2).blk t).view.emb (ix2 q k)
      = ix2 ((((cfg2.win 5).blk t).view.emb (ix2 p q)) 1) k := fun k => by
    funext a; apply Fin.ext
    match a with
    | ⟨0, _⟩ => show win2_2.index t (0 : Fin 2) * 64 + 1 * q.val = win2_5.index t (1 : Fin 2) * 64 + 1 * q.val; omega
    | ⟨1, _⟩ => show win2_2.index t (1 : Fin 2) * 128 + 1 * k.val = k.val; omega
  have r3 : ∀ k : Fin 128, ((cfg2.win 3).blk t).view.emb (ix2 q k)
      = ix2 ((((cfg2.win 5).blk t).view.emb (ix2 p q)) 1) k := fun k => by
    funext a; apply Fin.ext
    match a with
    | ⟨0, _⟩ => show win2_3.index t (0 : Fin 2) * 64 + 1 * q.val = win2_5.index t (1 : Fin 2) * 64 + 1 * q.val; omega
    | ⟨1, _⟩ => show win2_3.index t (1 : Fin 2) * 128 + 1 * k.val = k.val; omega
  have r4 : ((cfg2.win 4).blk t).view.emb (ix1 q) = ix1 ((((cfg2.win 5).blk t).view.emb (ix2 p q)) 1) := by
    funext a; apply Fin.ext
    match a with
    | ⟨0, _⟩ => show win2_4.index t (0 : Fin 1) * 64 + 1 * q.val = win2_5.index t (1 : Fin 2) * 64 + 1 * q.val; omega
  unfold G2
  exact dense_congr _ _ _ _ _ _ _ _ _ _ p q _
    (fun k => congrArg (V c main_v48) (r1 k)) (fun k => congrArg (V c main_v36) (r0 k))
    (fun k => congrArg (V c main_arg7) (r2 k)) (fun k => congrArg (V c main_arg8) (r3 k)) (congrArg (V c main_arg9) r4)

/-- An index of the output array is in point `t`'s block iff each coordinate is in the block's range on its axis. -/
theorem mem_blk2 (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v49).slice (win2_5.rect t)).set ↔ _
  rw [View.set_slice_whole, Rect.mem_set_unit]
  exact Iff.rfl

/-- Every row of the output array is in the block of the point numbered by the row's quotient by 5000. -/
theorem cover2 (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 20 := N_2
  let t : Fin cfg2.N := ⟨(i 0).val / 5000, by rw [hN]; omega⟩
  obtain ⟨e00, e01, e10, e11, e20, e21, e30, e31, e40, e50, e51⟩ := idx_facts2 t
  have ht : t.val = (i 0).val / 5000 := rfl
  refine ⟨t, flush2_5 t, ?_⟩
  rw [mem_blk2]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 64 ≤ (i 1).val ∧ (i 1).val < win2_5.index t (1 : Fin 2) * 64 + 64; omega

/-- THE OUTPUT ARRAY after region 2: `G2` of the arrays the region found. -/
theorem final2 (c : Dev nD) : (dat2 V c).arrAt 5 cfg2.N = G2 V c :=
  (dat2 V c).arrAt_eq_of_cover 5 (G2 V c) (fun t _ => flushed2_eq V c t) (cover2)

end Cert.KernelIdeal.Region

end
-- ==== Proof.Glue.lean ====
/-
  The host operations between the kernel regions, as functions of arrays.

  Before each region the program computes the neighbourhood mean of the current node features: for every node `n` and
  feature column `c`,  mean (n, c) = agg (n, c) / cnt n,  where `agg` adds row `e` of the gathered feature rows
  `h[src e]` (a negative `src e` counted from the end) into row `dst e` of a zero `[100000, 128]` array, `src` and `dst`
  being rows 0 and 1 of the `[2, 1600000]` edge list, and `cnt n` is the larger of `1` and the number of edges with
  `dst e = n`, computed once as a `[100000, 1]` column. The definitions below are those operations, one by one, so
  that what the program leaves in a buffer is one of them applied to the arguments.
-/
import proofs.«161550_j70368744177918_1_alg».proof.KernelIdeal

noncomputable section

namespace Cert.KernelIdeal.Glue

open Cert.KernelIdeal Idealize.ShloMosaic Idealize.SL.Sem
open Cert.KernelIdeal.Facts₀ Cert.KernelIdeal.Facts

variable {F : FTy → Type} [FloatOps F] [Cert.KernelIdeal.Facts]

/-- The source node of every edge: row 0 of the edge list, as a vector. -/
def src (ei : (⟨S2x1600000, .i32⟩ : BufTy).Contents (Elt F)) : (⟨S1600000, .i32⟩ : BufTy).Contents (Elt F) :=
  shapeCast S1600000 (extractStridedSlice S1x1600000 ![0, 0] ei slices_S2x1600000_S1x1600000_0_0)
    shapeCasts_S1x1600000_S1600000

/-- The destination node of every edge: row 1 of the edge list, as a vector. -/
def dst (ei : (⟨S2x1600000, .i32⟩ : BufTy).Contents (Elt F)) : (⟨S1600000, .i32⟩ : BufTy).Contents (Elt F) :=
  shapeCast S1600000 (extractStridedSlice S1x1600000 ![1, 0] ei slices_S2x1600000_S1x1600000_1_0)
    shapeCasts_S1x1600000_S1600000

/-- The neighbour count of every node, at least one, as a `[100000, 1]` column: ones added into a zero vector at the
    destinations, the maximum with ones, reshaped. -/
def cnt (ei : (⟨S2x1600000, .i32⟩ : BufTy).Contents (Elt F)) : (⟨S100000x1, .f32⟩ : BufTy).Contents (Elt F) :=
  shapeCast S100000x1
    (maximumf
      (Host.scatterAdd scatter_S100000_S1600000x1_S1600000_n_0_0_1
        (broadcastInDim S100000 ![] bcast_S_S100000 (constant S_ .f32 0x00000000#32))
        (broadcastInDim S1600000x1 ![0] bcast_S1600000_S1600000x1_0 (dst ei))
        (broadcastInDim S1600000 ![] bcast_S_S1600000 (constant S_ .f32 0x3F800000#32)))
      (broadcastInDim S100000 ![] bcast_S_S100000 (constant S_ .f32 0x3F800000#32)))
    shapeCasts_S100000_S100000x1

/-- The neighbourhood mean: the gathered source rows added into a zero array at the destinations, divided by the
    count broadcast along the columns. -/
def mean (h : (⟨S100000x128, .f32⟩ : BufTy).Contents (Elt F)) (ei : (⟨S2x1600000, .i32⟩ : BufTy).Contents (Elt F)) :
    (⟨S100000x128, .f32⟩ : BufTy).Contents (Elt F) :=
  Host.divf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 (dst ei))
      (Host.gather gather_S100000x128_S1600000x1_S1600000x128_1_0_n_n_0_1_1128 h
        (broadcastInDim S1600000x1 ![0] bcast_S1600000_S1600000x1_0
          (select (cmpi .slt (src ei) (broadcastInDim S1600000 ![] bcast_S_S1600000 (constantI S_ 32 0#32)))
            (addi (src ei) (broadcastInDim S1600000 ![] bcast_S_S1600000 (constantI S_ 32 100000#32)))
            (src ei)))))
    (broadcastInDim S100000x128 ![0, 1] bcast_S100000x1_S100000x128_0_1 (cnt ei))

end Cert.KernelIdeal.Glue

end
-- ==== Proof.KernelValue.lean ====
/-
  The idealized kernel's result as a function of its arguments.

  The fold through @main's segments, read buffer by buffer. The host stretch before a region leaves the neighbourhood
  mean of the current features in the region's second input (`Glue.mean`); a region leaves the dense update of its
  inputs in its output array (`Region.final0` … `final2`); no stretch and no region touches an argument, the edge
  rows or the count column once they are computed. So after the third region the result buffer holds
      dense h₂ (mean h₂) Wl₂ Wr₂ b₂,   h₂ = relu (dense h₁ (mean h₁) Wl₁ Wr₁ b₁),   h₁ = relu (dense x (mean x) Wl₀ Wr₀ b₀).
-/
import proofs.«161550_j70368744177918_1_alg».proof.Proof.PatchedKernelIdealFrame
import proofs.«161550_j70368744177918_1_alg».proof.Proof.Region
import proofs.«161550_j70368744177918_1_alg».proof.Proof.Glue
import Idealize.ShloMosaic.Lib.StableHlo.Run
import Idealize.ShloMosaic.PureOps.Ideal

set_option maxRecDepth 16384

noncomputable section

namespace Cert.KernelIdeal.KValue

open Cert.KernelIdeal Cert.KernelIdeal.Gen Idealize.ShloMosaic Idealize.ShloMosaic.TcCoe Idealize.ShloMosaic.StableHlo
open Idealize.ShloMosaic.Pipeline Idealize.SL.Sem
open Cert.Sage

/-- One rectified layer: the dense update of the features and their neighbourhood mean. -/
def layer (h : S100000x128.Idx → EReal) (ei : (⟨S2x1600000, .i32⟩ : BufTy).Contents (Elt Ideal))
    (Wl Wr : S128x128.Idx → EReal) (b : S128.Idx → EReal) : S100000x128.Idx → EReal :=
  relu (dense (M := 100000) (N := 128) (K := 128) h (Glue.mean (F := Ideal) h ei) Wl Wr b)

/-- The whole network: two rectified layers and a last layer of 64 outputs, unrectified. -/
def net (x0 : S100000x128.Idx → EReal) (x1 x2 : S128x128.Idx → EReal) (x3 : S128.Idx → EReal)
    (x4 x5 : S128x128.Idx → EReal) (x6 : S128.Idx → EReal) (x7 x8 : S64x128.Idx → EReal) (x9 : S64.Idx → EReal)
    (ei : (⟨S2x1600000, .i32⟩ : BufTy).Contents (Elt Ideal)) : S100000x64.Idx → EReal :=
  dense (M := 100000) (N := 64) (K := 128) (layer (layer x0 ei x1 x2 x3) ei x4 x5 x6)
    (Glue.mean (F := Ideal) (layer (layer x0 ei x1 x2 x3) ei x4 x5 x6) ei) x7 x8 x9

variable (m : (ℓ : Loc nD τ sig) → Buf (Elt Ideal) ℓ) (ρ : Dev nD → PrngReg) (c : Dev nD)

/-! ## After the first host stretch -/

theorem W1_arg0 : W1 m ρ c (Proc.devRef .tc main_arg0) = m ((c : Thread nD τ).loc main_arg0) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg0) = W0 m ρ c (Proc.devRef .tc main_arg0))

theorem W1_arg1 : W1 m ρ c (Proc.devRef .tc main_arg1) = m ((c : Thread nD τ).loc main_arg1) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg1) = W0 m ρ c (Proc.devRef .tc main_arg1))

theorem W1_arg2 : W1 m ρ c (Proc.devRef .tc main_arg2) = m ((c : Thread nD τ).loc main_arg2) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg2) = W0 m ρ c (Proc.devRef .tc main_arg2))

theorem W1_arg3 : W1 m ρ c (Proc.devRef .tc main_arg3) = m ((c : Thread nD τ).loc main_arg3) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg3) = W0 m ρ c (Proc.devRef .tc main_arg3))

theorem W1_arg4 : W1 m ρ c (Proc.devRef .tc main_arg4) = m ((c : Thread nD τ).loc main_arg4) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg4) = W0 m ρ c (Proc.devRef .tc main_arg4))

theorem W1_arg5 : W1 m ρ c (Proc.devRef .tc main_arg5) = m ((c : Thread nD τ).loc main_arg5) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg5) = W0 m ρ c (Proc.devRef .tc main_arg5))

theorem W1_arg6 : W1 m ρ c (Proc.devRef .tc main_arg6) = m ((c : Thread nD τ).loc main_arg6) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg6) = W0 m ρ c (Proc.devRef .tc main_arg6))

theorem W1_arg7 : W1 m ρ c (Proc.devRef .tc main_arg7) = m ((c : Thread nD τ).loc main_arg7) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg7) = W0 m ρ c (Proc.devRef .tc main_arg7))

theorem W1_arg8 : W1 m ρ c (Proc.devRef .tc main_arg8) = m ((c : Thread nD τ).loc main_arg8) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg8) = W0 m ρ c (Proc.devRef .tc main_arg8))

theorem W1_arg9 : W1 m ρ c (Proc.devRef .tc main_arg9) = m ((c : Thread nD τ).loc main_arg9) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg9) = W0 m ρ c (Proc.devRef .tc main_arg9))

/-- The edge list's first row, as the stretch leaves it. -/
theorem W1_v1 : W1 m ρ c (Proc.devRef .tc main_v1) = Glue.src (F := Ideal) (m ((c : Thread nD τ).loc main_arg10)) := by
  show StableHlo.after hostOps0 (W0 m ρ c) (Proc.devRef .tc main_v1) = _
  dsimp only [hostOps0]
  after_results_simp
  rfl

/-- The edge list's second row. -/
theorem W1_v3 : W1 m ρ c (Proc.devRef .tc main_v3) = Glue.dst (F := Ideal) (m ((c : Thread nD τ).loc main_arg10)) := by
  show StableHlo.after hostOps0 (W0 m ρ c) (Proc.devRef .tc main_v3) = _
  dsimp only [hostOps0]
  after_results_simp
  rfl

/-- The count column. -/
theorem W1_v10 : W1 m ρ c (Proc.devRef .tc main_v10) = Glue.cnt (F := Ideal) (m ((c : Thread nD τ).loc main_arg10)) := by
  show StableHlo.after hostOps0 (W0 m ρ c) (Proc.devRef .tc main_v10) = _
  dsimp only [hostOps0]
  after_results_simp
  rfl

/-- The neighbourhood mean of the input features. -/
theorem W1_v22 : W1 m ρ c (Proc.devRef .tc main_v22) = Glue.mean (F := Ideal) (m ((c : Thread nD τ).loc main_arg0)) (m ((c : Thread nD τ).loc main_arg10)) := by
  show StableHlo.after hostOps0 (W0 m ρ c) (Proc.devRef .tc main_v22) = _
  dsimp only [hostOps0]
  after_results_simp
  rfl

/-! ## After the first region -/

/-- The first region's output: the first rectified layer. -/
theorem W2_v23 : W2 m ρ c (Proc.devRef .tc main_v23) = layer (m ((c : Thread nD τ).loc main_arg0)) (m ((c : Thread nD τ).loc main_arg10)) (m ((c : Thread nD τ).loc main_arg1)) (m ((c : Thread nD τ).loc main_arg2)) (m ((c : Thread nD τ).loc main_arg3)) := by
  refine (W2_arr m ρ c 5).trans ((Region.final0 (V1 m ρ) c).trans ?_)
  unfold Region.G0 layer
  show relu (dense (M := 100000) (N := 128) (K := 128) (W1 m ρ c (Proc.devRef .tc main_arg0)) (W1 m ρ c (Proc.devRef .tc main_v22))
    (W1 m ρ c (Proc.devRef .tc main_arg1)) (W1 m ρ c (Proc.devRef .tc main_arg2)) (W1 m ρ c (Proc.devRef .tc main_arg3))) = _
  rw [W1_arg0, W1_v22, W1_arg1, W1_arg2, W1_arg3]

theorem W2_keep_main_v1 : W2 m ρ c (Proc.devRef .tc main_v1) = W1 m ρ c (Proc.devRef .tc main_v1) := W2_of_ne m ρ c main_v1 (by decide)

theorem W2_keep_main_v3 : W2 m ρ c (Proc.devRef .tc main_v3) = W1 m ρ c (Proc.devRef .tc main_v3) := W2_of_ne m ρ c main_v3 (by decide)

theorem W2_keep_main_v10 : W2 m ρ c (Proc.devRef .tc main_v10) = W1 m ρ c (Proc.devRef .tc main_v10) := W2_of_ne m ρ c main_v10 (by decide)

theorem W2_keep_main_arg4 : W2 m ρ c (Proc.devRef .tc main_arg4) = W1 m ρ c (Proc.devRef .tc main_arg4) := W2_of_ne m ρ c main_arg4 (by decide)

theorem W2_keep_main_arg5 : W2 m ρ c (Proc.devRef .tc main_arg5) = W1 m ρ c (Proc.devRef .tc main_arg5) := W2_of_ne m ρ c main_arg5 (by decide)

theorem W2_keep_main_arg6 : W2 m ρ c (Proc.devRef .tc main_arg6) = W1 m ρ c (Proc.devRef .tc main_arg6) := W2_of_ne m ρ c main_arg6 (by decide)

theorem W2_keep_main_arg7 : W2 m ρ c (Proc.devRef .tc main_arg7) = W1 m ρ c (Proc.devRef .tc main_arg7) := W2_of_ne m ρ c main_arg7 (by decide)

theorem W2_keep_main_arg8 : W2 m ρ c (Proc.devRef .tc main_arg8) = W1 m ρ c (Proc.devRef .tc main_arg8) := W2_of_ne m ρ c main_arg8 (by decide)

theorem W2_keep_main_arg9 : W2 m ρ c (Proc.devRef .tc main_arg9) = W1 m ρ c (Proc.devRef .tc main_arg9) := W2_of_ne m ρ c main_arg9 (by decide)

/-! ## After the second host stretch -/

theorem W3_keep_main_v23 : W3 m ρ c (Proc.devRef .tc main_v23) = W2 m ρ c (Proc.devRef .tc main_v23) :=
  StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W3_keep_main_arg4 : W3 m ρ c (Proc.devRef .tc main_arg4) = W2 m ρ c (Proc.devRef .tc main_arg4) :=
  StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W3_keep_main_arg5 : W3 m ρ c (Proc.devRef .tc main_arg5) = W2 m ρ c (Proc.devRef .tc main_arg5) :=
  StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W3_keep_main_arg6 : W3 m ρ c (Proc.devRef .tc main_arg6) = W2 m ρ c (Proc.devRef .tc main_arg6) :=
  StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W3_keep_main_v1 : W3 m ρ c (Proc.devRef .tc main_v1) = W2 m ρ c (Proc.devRef .tc main_v1) :=
  StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W3_keep_main_v3 : W3 m ρ c (Proc.devRef .tc main_v3) = W2 m ρ c (Proc.devRef .tc main_v3) :=
  StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W3_keep_main_v10 : W3 m ρ c (Proc.devRef .tc main_v10) = W2 m ρ c (Proc.devRef .tc main_v10) :=
  StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W3_keep_main_arg7 : W3 m ρ c (Proc.devRef .tc main_arg7) = W2 m ρ c (Proc.devRef .tc main_arg7) :=
  StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W3_keep_main_arg8 : W3 m ρ c (Proc.devRef .tc main_arg8) = W2 m ρ c (Proc.devRef .tc main_arg8) :=
  StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W3_keep_main_arg9 : W3 m ρ c (Proc.devRef .tc main_arg9) = W2 m ρ c (Proc.devRef .tc main_arg9) :=
  StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- The neighbourhood mean of the first layer's output. -/
theorem W3_v35 : W3 m ρ c (Proc.devRef .tc main_v35) = Glue.mean (F := Ideal) (W2 m ρ c (Proc.devRef .tc main_v23)) (m ((c : Thread nD τ).loc main_arg10)) := by
  show StableHlo.after hostOps1 (W2 m ρ c) (Proc.devRef .tc main_v35) = _
  dsimp only [hostOps1]
  after_results_simp
  rw [W2_keep_main_v1, W2_keep_main_v3, W2_keep_main_v10, W1_v1, W1_v3, W1_v10]
  rfl

/-! ## After the second region -/

/-- The second region's output: the second rectified layer. -/
theorem W4_v36 : W4 m ρ c (Proc.devRef .tc main_v36)
    = layer (layer (m ((c : Thread nD τ).loc main_arg0)) (m ((c : Thread nD τ).loc main_arg10)) (m ((c : Thread nD τ).loc main_arg1)) (m ((c : Thread nD τ).loc main_arg2)) (m ((c : Thread nD τ).loc main_arg3))) (m ((c : Thread nD τ).loc main_arg10)) (m ((c : Thread nD τ).loc main_arg4)) (m ((c : Thread nD τ).loc main_arg5)) (m ((c : Thread nD τ).loc main_arg6)) := by
  refine (W4_arr m ρ c 5).trans ((Region.final1 (V3 m ρ) c).trans ?_)
  unfold Region.G1
  show relu (dense (M := 100000) (N := 128) (K := 128) (W3 m ρ c (Proc.devRef .tc main_v23)) (W3 m ρ c (Proc.devRef .tc main_v35))
    (W3 m ρ c (Proc.devRef .tc main_arg4)) (W3 m ρ c (Proc.devRef .tc main_arg5)) (W3 m ρ c (Proc.devRef .tc main_arg6))) = _
  rw [W3_v35, W3_keep_main_v23, W3_keep_main_arg4, W3_keep_main_arg5, W3_keep_main_arg6,
    W2_keep_main_arg4, W2_keep_main_arg5, W2_keep_main_arg6, W1_arg4, W1_arg5, W1_arg6, W2_v23]
  rfl

theorem W4_keep_main_v1 : W4 m ρ c (Proc.devRef .tc main_v1) = W3 m ρ c (Proc.devRef .tc main_v1) := W4_of_ne m ρ c main_v1 (by decide)

theorem W4_keep_main_v3 : W4 m ρ c (Proc.devRef .tc main_v3) = W3 m ρ c (Proc.devRef .tc main_v3) := W4_of_ne m ρ c main_v3 (by decide)

theorem W4_keep_main_v10 : W4 m ρ c (Proc.devRef .tc main_v10) = W3 m ρ c (Proc.devRef .tc main_v10) := W4_of_ne m ρ c main_v10 (by decide)

theorem W4_keep_main_arg7 : W4 m ρ c (Proc.devRef .tc main_arg7) = W3 m ρ c (Proc.devRef .tc main_arg7) := W4_of_ne m ρ c main_arg7 (by decide)

theorem W4_keep_main_arg8 : W4 m ρ c (Proc.devRef .tc main_arg8) = W3 m ρ c (Proc.devRef .tc main_arg8) := W4_of_ne m ρ c main_arg8 (by decide)

theorem W4_keep_main_arg9 : W4 m ρ c (Proc.devRef .tc main_arg9) = W3 m ρ c (Proc.devRef .tc main_arg9) := W4_of_ne m ρ c main_arg9 (by decide)

/-! ## After the third host stretch -/

theorem W5_keep_main_v36 : W5 m ρ c (Proc.devRef .tc main_v36) = W4 m ρ c (Proc.devRef .tc main_v36) :=
  StableHlo.after_of_forall_not_mem _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W5_keep_main_arg7 : W5 m ρ c (Proc.devRef .tc main_arg7) = W4 m ρ c (Proc.devRef .tc main_arg7) :=
  StableHlo.after_of_forall_not_mem _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W5_keep_main_arg8 : W5 m ρ c (Proc.devRef .tc main_arg8) = W4 m ρ c (Proc.devRef .tc main_arg8) :=
  StableHlo.after_of_forall_not_mem _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W5_keep_main_arg9 : W5 m ρ c (Proc.devRef .tc main_arg9) = W4 m ρ c (Proc.devRef .tc main_arg9) :=
  StableHlo.after_of_forall_not_mem _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- The neighbourhood mean of the second layer's output. -/
theorem W5_v48 : W5 m ρ c (Proc.devRef .tc main_v48) = Glue.mean (F := Ideal) (W4 m ρ c (Proc.devRef .tc main_v36)) (m ((c : Thread nD τ).loc main_arg10)) := by
  show StableHlo.after hostOps2 (W4 m ρ c) (Proc.devRef .tc main_v48) = _
  dsimp only [hostOps2]
  after_results_simp
  rw [W4_keep_main_v1, W4_keep_main_v3, W4_keep_main_v10, W3_keep_main_v1, W3_keep_main_v3, W3_keep_main_v10,
    W2_keep_main_v1, W2_keep_main_v3, W2_keep_main_v10, W1_v1, W1_v3, W1_v10]
  rfl

/-! ## After the third region -/

/-- THE RESULT: the network of the arguments. -/
theorem value : W6 m ρ c (Proc.devRef .tc main_v49)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W6_arr m ρ c 5).trans ((Region.final2 (V5 m ρ) c).trans ?_)
  unfold Region.G2 net
  show dense (M := 100000) (N := 64) (K := 128) (W5 m ρ c (Proc.devRef .tc main_v36)) (W5 m ρ c (Proc.devRef .tc main_v48))
    (W5 m ρ c (Proc.devRef .tc main_arg7)) (W5 m ρ c (Proc.devRef .tc main_arg8)) (W5 m ρ c (Proc.devRef .tc main_arg9)) = _
  rw [W5_v48, W5_keep_main_v36, W5_keep_main_arg7, W5_keep_main_arg8, W5_keep_main_arg9,
    W4_keep_main_arg7, W4_keep_main_arg8, W4_keep_main_arg9, W3_keep_main_arg7, W3_keep_main_arg8, W3_keep_main_arg9,
    W2_keep_main_arg7, W2_keep_main_arg8, W2_keep_main_arg9, W1_arg7, W1_arg8, W1_arg9, W4_v36]

end Cert.KernelIdeal.KValue

end
-- ==== Proof.RefValue.lean ====
/-
  The reference program's three layers, each read as one layer of the specification.

  The reference computes, three times over, a neighbourhood mean of the current node features followed by the dense
  update `mean · Wlᵀ + h · Wrᵀ + b`; the first two layers end with the rectifier. Reading each operation of a layer
  at an entry `(r, j)` — the maximum, the two sums, the two products of matrices as sums over the shared axis, the
  transposes of the weights, the bias broadcast along the rows, the zero broadcast to every entry — gives literally
  the expression the specification writes for that entry, in the same association, so each equation closes by
  reading and no law of the extended reals is used.

  The neighbourhood mean itself (gather the source rows, add them into their target rows, divide by the clipped
  neighbour counts) is never read at an entry: it is the same function of the node features and the edge list in
  all three layers, and the last two statements say exactly that.
-/
import proofs.«161550_j70368744177918_1_alg».proof.Proof.Gen.ReferenceIdeal.Read
import proofs.«161550_j70368744177918_1_alg».proof.Proof.Spec

noncomputable section

open scoped BigOperators

namespace Cert.ReferenceIdeal.RefValue

open Cert.ReferenceIdeal Cert.ReferenceIdeal.Gen Cert.ReferenceIdeal.Read Cert.Sage
open Idealize.ShloMosaic Idealize.ShloMosaic.ValueIdx

variable (x0 : S100000x128.Idx → EReal) (x1 x2 : S128x128.Idx → EReal) (x3 : S128.Idx → EReal)
  (x4 x5 : S128x128.Idx → EReal) (x6 : S128.Idx → EReal) (x7 x8 : S64x128.Idx → EReal) (x9 : S64.Idx → EReal)
  (x10 : (⟨S2x1600000, .i32⟩ : BufTy).Contents (Elt Ideal))

/-- Layer 0: the rectified dense update of the input features and their neighbourhood mean. -/
theorem layer0 :
    val_main_v30 (F := Ideal) x0 x1 x2 x3 x10
      = relu (dense (M := 100000) (N := 128) (K := 128) x0 (val_main_v21 (F := Ideal) x0 x10) x1 x2 x3) := by
  funext i
  obtain ⟨r, j, rfl⟩ : ∃ (r : Fin 100000) (j : Fin 128), i = ValueIdx.ix2 r j := ⟨i 0, i 1, ValueIdx.eq_ix2 i⟩
  rw [relu_apply, dense_apply, val_main_v30_apply, val_main_v29_apply, val_main_v26_apply, val_main_v23_apply,
    val_main_v25_apply, val_main_v28_apply, val_main_v27_apply, val_main_call0_v0_apply, val_main_call0_cst_apply]
  simp only [val_main_v22_apply, val_main_v24_apply]
  -- the row of the left factor, the row of the transposed weight, and the bias entry, as coordinates
  have el1 : ∀ k : Fin 128, lidx_main_v23 (ix2 r j) k = ix2 r k := fun k =>
    funext fun a => Fin.ext (by match a with | ⟨0, _⟩ => rfl | ⟨1, _⟩ => rfl)
  have er1 : ∀ k : Fin 128, idx_main_v22 (ridx_main_v23 (ix2 r j) k) = ix2 j k := fun k =>
    funext fun a => Fin.ext (by match a with | ⟨0, _⟩ => rfl | ⟨1, _⟩ => rfl)
  have el2 : ∀ k : Fin 128, lidx_main_v25 (ix2 r j) k = ix2 r k := fun k =>
    funext fun a => Fin.ext (by match a with | ⟨0, _⟩ => rfl | ⟨1, _⟩ => rfl)
  have er2 : ∀ k : Fin 128, idx_main_v24 (ridx_main_v25 (ix2 r j) k) = ix2 j k := fun k =>
    funext fun a => Fin.ext (by match a with | ⟨0, _⟩ => rfl | ⟨1, _⟩ => rfl)
  have eb : idx_main_v27 (idx_main_v28 (ix2 r j)) = ix1 j :=
    funext fun a => Fin.ext (by match a with | ⟨0, _⟩ => rfl)
  simp only [el1, er1, el2, er2, eb, Ideal.maximumf_def, Ideal.addf_def, Ideal.ofBits_def]

/-- Layer 1: the rectified dense update of layer 0's output and its neighbourhood mean. -/
theorem layer1 :
    val_main_v57 (F := Ideal) x0 x1 x2 x3 x4 x5 x6 x10
      = relu (dense (M := 100000) (N := 128) (K := 128) (val_main_v30 (F := Ideal) x0 x1 x2 x3 x10)
          (val_main_v48 (F := Ideal) x0 x1 x2 x3 x10) x4 x5 x6) := by
  funext i
  obtain ⟨r, j, rfl⟩ : ∃ (r : Fin 100000) (j : Fin 128), i = ValueIdx.ix2 r j := ⟨i 0, i 1, ValueIdx.eq_ix2 i⟩
  rw [relu_apply, dense_apply, val_main_v57_apply, val_main_v56_apply, val_main_v53_apply, val_main_v50_apply,
    val_main_v52_apply, val_main_v55_apply, val_main_v54_apply, val_main_call1_v0_apply, val_main_call1_cst_apply]
  simp only [val_main_v49_apply, val_main_v51_apply]
  have el1 : ∀ k : Fin 128, lidx_main_v50 (ix2 r j) k = ix2 r k := fun k =>
    funext fun a => Fin.ext (by match a with | ⟨0, _⟩ => rfl | ⟨1, _⟩ => rfl)
  have er1 : ∀ k : Fin 128, idx_main_v49 (ridx_main_v50 (ix2 r j) k) = ix2 j k := fun k =>
    funext fun a => Fin.ext (by match a with | ⟨0, _⟩ => rfl | ⟨1, _⟩ => rfl)
  have el2 : ∀ k : Fin 128, lidx_main_v52 (ix2 r j) k = ix2 r k := fun k =>
    funext fun a => Fin.ext (by match a with | ⟨0, _⟩ => rfl | ⟨1, _⟩ => rfl)
  have er2 : ∀ k : Fin 128, idx_main_v51 (ridx_main_v52 (ix2 r j) k) = ix2 j k := fun k =>
    funext fun a => Fin.ext (by match a with | ⟨0, _⟩ => rfl | ⟨1, _⟩ => rfl)
  have eb : idx_main_v54 (idx_main_v55 (ix2 r j)) = ix1 j :=
    funext fun a => Fin.ext (by match a with | ⟨0, _⟩ => rfl)
  simp only [el1, er1, el2, er2, eb, Ideal.maximumf_def, Ideal.addf_def, Ideal.ofBits_def]

/-- Layer 2: the dense update of layer 1's output and its neighbourhood mean, with 64 output columns and no
    rectifier. -/
theorem layer2 :
    val_main_v83 (F := Ideal) x0 x1 x2 x3 x4 x5 x6 x7 x8 x9 x10
      = dense (M := 100000) (N := 64) (K := 128) (val_main_v57 (F := Ideal) x0 x1 x2 x3 x4 x5 x6 x10)
          (val_main_v75 (F := Ideal) x0 x1 x2 x3 x4 x5 x6 x10) x7 x8 x9 := by
  funext i
  obtain ⟨r, j, rfl⟩ : ∃ (r : Fin 100000) (j : Fin 64), i = ValueIdx.ix2 r j := ⟨i 0, i 1, ValueIdx.eq_ix2 i⟩
  rw [dense_apply, val_main_v83_apply, val_main_v80_apply, val_main_v77_apply, val_main_v79_apply,
    val_main_v82_apply, val_main_v81_apply]
  simp only [val_main_v76_apply, val_main_v78_apply]
  have el1 : ∀ k : Fin 128, lidx_main_v77 (ix2 r j) k = ix2 r k := fun k =>
    funext fun a => Fin.ext (by match a with | ⟨0, _⟩ => rfl | ⟨1, _⟩ => rfl)
  have er1 : ∀ k : Fin 128, idx_main_v76 (ridx_main_v77 (ix2 r j) k) = ix2 j k := fun k =>
    funext fun a => Fin.ext (by match a with | ⟨0, _⟩ => rfl | ⟨1, _⟩ => rfl)
  have el2 : ∀ k : Fin 128, lidx_main_v79 (ix2 r j) k = ix2 r k := fun k =>
    funext fun a => Fin.ext (by match a with | ⟨0, _⟩ => rfl | ⟨1, _⟩ => rfl)
  have er2 : ∀ k : Fin 128, idx_main_v78 (ridx_main_v79 (ix2 r j) k) = ix2 j k := fun k =>
    funext fun a => Fin.ext (by match a with | ⟨0, _⟩ => rfl | ⟨1, _⟩ => rfl)
  have eb : idx_main_v81 (idx_main_v82 (ix2 r j)) = ix1 j :=
    funext fun a => Fin.ext (by match a with | ⟨0, _⟩ => rfl)
  simp only [el1, er1, el2, er2, eb, Ideal.addf_def]

/-- Layer 1's neighbourhood mean is layer 0's mean, as a function of the features and the edge list, applied to
    layer 0's output: the two are the same chain of operations (the same index arithmetic on the edge list, the
    same gather, the same two additions into rows, the same clipped counts, the same division). -/
theorem mean1 :
    val_main_v48 (F := Ideal) x0 x1 x2 x3 x10
      = val_main_v21 (F := Ideal) (val_main_v30 (F := Ideal) x0 x1 x2 x3 x10) x10 := rfl

/-- Layer 2's neighbourhood mean is the same function again, applied to layer 1's output. -/
theorem mean2 :
    val_main_v75 (F := Ideal) x0 x1 x2 x3 x4 x5 x6 x10
      = val_main_v21 (F := Ideal) (val_main_v57 (F := Ideal) x0 x1 x2 x3 x4 x5 x6 x10) x10 := rfl

end Cert.ReferenceIdeal.RefValue

end
-- ==== Proof.LibRowOps.lean ====
/-
  A row gather and a row scatter-add read at an entry.

  "Sparse matrix times dense" is written as: take the rows `x[src]` of a dense `[N, C]` array at `E` row numbers,
  scale them, and add row `e` of the `[E, C]` result into row `dst[e]` of an `[N, C]` accumulator. In StableHLO the
  first step is a `gather` whose slices are whole rows (operand `[N, C]`, start indices `[E, 1]`, result `[E, C]`;
  offset axis 1, collapsed axis 0, start index map `[0]`, index vector on axis 1, slice sizes `[1, C]`), and the last
  step is a `scatter` with an `add` body whose windows are whole rows (operand `[N, C]`, scatter indices `[E, 1]`,
  updates `[E, C]`; update window axis 1, inserted window axis 0, scatter-dims-to-operand-dims `[0]`, index vector on
  axis 1). This file reads both at one entry, for all extents `N`, `E`, `C`:

  * `gather_rows_apply`: entry `(e, c)` of the gather is the operand's entry `(r, c)`, where `r` is the start index
    `idx (e, 0)` read as a signed integer and clamped into `[0, N − 1]`;
  * `scatterAdd_rows_apply`: at the ideal instance (the extended reals), entry `(n, c)` of the scatter-add is the
    operand's entry `(n, c)` plus the sum over `e : Fin E` of the update's entry `(e, c)` for those `e` whose scatter
    index `idx (e, 0)`, read as a signed integer, is `n`. An update whose row number is negative or at least `N`
    lands nowhere: it equals no `n : Fin N`.

  Each is stated twice: for the record `rowGatherDims` / `rowScatterDims` built from the extents (a literal record
  with the same lists is that record by unfolding, its decided conditions being a proof of the same proposition), and,
  `…_of_eq`, for ANY record whose lists are the ones above (each hypothesis closes by `rfl` on a literal record), the
  form to rewrite with.
-/
import Idealize.ShloMosaic.PureOps.Ideal.Laws
import Idealize.ShloMosaic.Lib.ValueIdx

noncomputable section

open scoped BigOperators

namespace Cert.LibRowOps

open Idealize.ShloMosaic Idealize.ShloMosaic.ValueIdx

variable {N E C w : Nat}

/-- Axis 1 is not the axis 0 the index maps name. -/
private theorem one_not_mem_zero : (1 : Fin 2) ∉ ([0] : List (Fin 2)) := by decide
/-- Of two axes, the ones other than axis 0 do not include axis 0 … -/
private theorem zero_not_mem_kept : (0 : Fin 2) ∉ (List.finRange 2).filter (fun a => a ∉ ([0] : List (Fin 2))) := by decide
/-- … and do include axis 1. -/
private theorem one_mem_kept : (1 : Fin 2) ∈ (List.finRange 2).filter (fun a => a ∉ ([0] : List (Fin 2))) := by decide
/-- The same with the (empty) list of batching axes appended to the removed ones. -/
private theorem one_mem_kept_append :
    (1 : Fin 2) ∈ (List.finRange 2).filter (fun a => a ∉ ([0] ++ [] : List (Fin 2))) := by decide

/-! ## The row scatter-add -/

/-- The dimension numbers of a scatter of whole rows: operand `[N, C]`, scatter indices `[E, 1]`, updates `[E, C]`;
    the updates' axis 1 is the window axis, the operand's axis 0 is the inserted one and the one the scatter index
    names, and the index vector lies along axis 1 of the scatter indices. Their conditions `wf` are decided on a
    program's literal extents. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the row axis the window of update `(e, c')` starts at the scatter index `idx (e, 0)`, read signed. -/
theorem scatter_start_zero (wf) (idx : IVec ⟨2, ![E, 1]⟩ w) (e : Fin E) (c' : Fin C) :
    (rowScatterDims N E C wf).start (ix2 e c') idx 0 = (idx (ix2 e ⟨0, Nat.one_pos⟩)).toInt := by
  unfold ScatterDims.start
  rw [dif_pos (show (0 : Fin 2) ∈ (rowScatterDims N E C wf).scatterDimsToOperandDims from List.mem_singleton.mpr rfl)]
  have hsi : (rowScatterDims N E C wf).siIdx (ix2 e c')
      ⟨List.idxOf (0 : Fin 2) (rowScatterDims N E C wf).scatterDimsToOperandDims,
        List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

/-- On the column axis, which no scatter index names, every window starts at `0`. -/
theorem scatter_start_one (wf) (idx : IVec ⟨2, ![E, 1]⟩ w) (j : (⟨2, ![E, C]⟩ : Shape).Idx) :
    (rowScatterDims N E C wf).start j idx 1 = 0 := by
  unfold ScatterDims.start
  rw [dif_neg (show (1 : Fin 2) ∉ (rowScatterDims N E C wf).scatterDimsToOperandDims from one_not_mem_zero)]

/-- The row axis is inserted: the window coordinate there is `0`. -/
theorem scatter_window_zero (wf) (j : (⟨2, ![E, C]⟩ : Shape).Idx) :
    (rowScatterDims N E C wf).window j 0 = 0 := by
  unfold ScatterDims.window
  rw [dif_neg (show (0 : Fin 2) ∉ (rowScatterDims N E C wf).sKept from zero_not_mem_kept)]

/-- On the column axis the window coordinate of update `(e, c')` is its column `c'`. -/
theorem scatter_window_one (wf) (e : Fin E) (c' : Fin C) :
    (rowScatterDims N E C wf).window (ix2 e c') 1 = c'.val := by
  unfold ScatterDims.window
  rw [dif_pos (show (1 : Fin 2) ∈ (rowScatterDims N E C wf).sKept from one_mem_kept)]
  rfl

/-- WHERE AN UPDATE LANDS: update `(e, c')` lands at operand entry `(n, c)` exactly when its scatter index
    `idx (e, 0)`, read signed, is `n` and its column `c'` is `c`. (Start plus window coordinate is the signed index
    on the row axis and `c'` on the column axis; a row outside `[0, N)` is dropped, and is no `n : Fin N`.) -/
theorem scatter_resultIdx?_iff (wf) (idx : IVec ⟨2, ![E, 1]⟩ w) (e : Fin E) (c' : Fin C) (n : Fin N) (c : Fin C) :
    (rowScatterDims N E C wf).resultIdx? (ix2 e c') idx = some (ix2 n c)
      ↔ (idx (ix2 e ⟨0, Nat.one_pos⟩)).toInt = (n.val : Int) ∧ c' = c := by
  have h0 := scatter_start_zero (N := N) wf idx e c'
  have h1 := scatter_start_one (N := N) wf idx (ix2 e c')
  have w0 := scatter_window_zero (N := N) wf (ix2 e c')
  have w1 := scatter_window_one (N := N) wf e c'
  unfold ScatterDims.resultIdx?
  split
  · -- the window is inside the operand: compare the two coordinates
    rename_i h
    have g0 := h 0
    have g1 := h 1
    rw [h0, w0] at g0
    rw [h1, w1] at g1
    rw [Option.some.injEq]
    constructor
    · intro hf
      have e0 : ((rowScatterDims N E C wf).start (ix2 e c') idx 0
          + (rowScatterDims N E C wf).window (ix2 e c') 0).toNat = n.val := congrArg (fun f => (f 0).val) hf
      have e1 : ((rowScatterDims N E C wf).start (ix2 e c') idx 1
          + (rowScatterDims N E C wf).window (ix2 e c') 1).toNat = c.val := congrArg (fun f => (f 1).val) hf
      rw [h0, w0] at e0
      rw [h1, w1] at e1
      exact ⟨by omega, Fin.ext (by omega)⟩
    · rintro ⟨hz, rfl⟩
      funext a
      refine Fin.ext ?_
      match a with
      | ⟨0, _⟩ =>
        show ((rowScatterDims N E C wf).start (ix2 e c') idx 0
          + (rowScatterDims N E C wf).window (ix2 e c') 0).toNat = n.val
        rw [h0, w0]; omega
      | ⟨1, _⟩ =>
        show ((rowScatterDims N E C wf).start (ix2 e c') idx 1
          + (rowScatterDims N E C wf).window (ix2 e c') 1).toNat = c'.val
        rw [h1, w1]; omega
  · -- the window leaves the operand: then the signed index is no row number
    rename_i h
    constructor
    · intro hf; exact absurd hf (by simp)
    · rintro ⟨hz, rfl⟩
      exfalso; apply h; intro a
      match a with
      | ⟨0, _⟩ =>
        show 0 ≤ (rowScatterDims N E C wf).start (ix2 e c') idx 0 + (rowScatterDims N E C wf).window (ix2 e c') 0
          ∧ (rowScatterDims N E C wf).start (ix2 e c') idx 0 + (rowScatterDims N E C wf).window (ix2 e c') 0 < (N : Int)
        rw [h0, w0]; have := n.isLt; omega
      | ⟨1, _⟩ =>
        show 0 ≤ (rowScatterDims N E C wf).start (ix2 e c') idx 1 + (rowScatterDims N E C wf).window (ix2 e c') 1
          ∧ (rowScatterDims N E C wf).start (ix2 e c') idx 1 + (rowScatterDims N E C wf).window (ix2 e c') 1 < (C : Int)
        rw [h1, w1]; have := c'.isLt; omega

/-- THE ROW SCATTER-ADD READ AT `(n, c)`, at the ideal instance: the operand's entry plus the sum, over the update
    rows `e`, of the update's entry `(e, c)` when the scatter index `idx (e, 0)`, read signed, is `n`, and `0`
    otherwise. (The sum over the updates that land at `(n, c)` is a double sum over `(e, c')`; by
    `scatter_resultIdx?_iff` the inner sum over `c'` has the one term `c' = c`.) -/
theorem scatterAdd_rows_apply {φ : FTy} (wf) (x : FVec Ideal ⟨2, ![N, C]⟩ φ) (idx : IVec ⟨2, ![E, 1]⟩ w)
    (upd : FVec Ideal ⟨2, ![E, C]⟩ φ) (n : Fin N) (c : Fin C) :
    Host.scatterAdd (F := Ideal) (rowScatterDims N E C wf) x idx upd (ix2 n c)
      = x (ix2 n c)
        + ∑ e : Fin E, if (idx (ix2 e ⟨0, Nat.one_pos⟩)).toInt = (n.val : Int) then upd (ix2 e c) else 0 := by
  show x (ix2 n c) + ∑ j ∈ Finset.univ.filter
    (fun j => (rowScatterDims N E C wf).resultIdx? j idx = some (ix2 n c)), upd j = _
  congr 1
  rw [Finset.sum_filter, sum_idx2]
  refine Finset.sum_congr rfl fun e _ => ?_
  by_cases hz : (idx (ix2 e ⟨0, Nat.one_pos⟩)).toInt = (n.val : Int)
  · simp only [scatter_resultIdx?_iff, hz, true_and, if_true, Finset.sum_ite_eq', Finset.mem_univ]
  · simp only [scatter_resultIdx?_iff, hz, false_and, if_false, Finset.sum_const_zero]

/-- A record with the row scatter's four lists IS `rowScatterDims`. -/
theorem eq_rowScatterDims (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) : ∃ wf, d = rowScatterDims N E C wf := by
  obtain ⟨uw, iw, sd, iv, wf⟩ := d
  simp only at huw hiw hsd hiv
  subst huw hiw hsd hiv
  exact ⟨wf, rfl⟩

/-- The row scatter-add read at `(n, c)`, for ANY record with the row scatter's four lists. -/
theorem scatterAdd_rows_apply_of_eq {φ : FTy} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) (x : FVec Ideal ⟨2, ![N, C]⟩ φ) (idx : IVec ⟨2, ![E, 1]⟩ w)
    (upd : FVec Ideal ⟨2, ![E, C]⟩ φ) (n : Fin N) (c : Fin C) :
    Host.scatterAdd (F := Ideal) d x idx upd (ix2 n c)
      = x (ix2 n c)
        + ∑ e : Fin E, if (idx (ix2 e ⟨0, Nat.one_pos⟩)).toInt = (n.val : Int) then upd (ix2 e c) else 0 := by
  obtain ⟨wf, rfl⟩ := eq_rowScatterDims d huw hiw hsd hiv
  exact scatterAdd_rows_apply wf x idx upd n c

/-! ## The row gather -/

/-- The dimension numbers of a gather of whole rows: operand `[N, C]`, start indices `[E, 1]`, result `[E, C]`; the
    result's axis 1 is the offset axis, the operand's axis 0 is collapsed and is the one the start index names, the
    index vector lies along axis 1 of the start indices, and a slice is one row, `[1, C]`. Their conditions `wf` are
    decided on a program's literal extents. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `idx (e, 0)`, read signed and clamped into `[0, N − 1]`, and
    column `c`. (On the row axis the operand index is the clamped start, the axis being collapsed and not a batching
    one; on the column axis the start is `0` and the offset coordinate is `c`.) -/
theorem gather_rows_apply {α : Type} (hN : 0 < N) (wf) (x : (⟨2, ![N, C]⟩ : Shape).Idx → α)
    (idx : IVec ⟨2, ![E, 1]⟩ w) (e : Fin E) (c : Fin C) :
    Host.gather (rowGatherDims N E C wf) x idx (ix2 e c)
      = x (ix2 ⟨min (idx (ix2 e ⟨0, Nat.one_pos⟩)).toInt.toNat (N - 1), by omega⟩ c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = min (idx (ix2 e ⟨0, Nat.one_pos⟩)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c)
        ⟨List.idxOf (0 : Fin 2) (rowGatherDims N E C wf).startIndexMap,
          List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    have hs : (rowGatherDims N E C wf).start (ix2 e c) idx 1 = 0 := by
      unfold GatherDims.start
      rw [dif_neg (show (1 : Fin 2) ∉ (rowGatherDims N E C wf).startIndexMap from one_not_mem_zero)]
    have ho : (rowGatherDims N E C wf).offCoord (ix2 e c) 1 = c.val := by
      unfold GatherDims.offCoord
      rw [dif_pos (show (1 : Fin 2) ∈ (rowGatherDims N E C wf).sKept from one_mem_kept_append)]
      rfl
    rw [hs, ho]; omega

/-- A record with the row gather's seven fields IS `rowGatherDims`. -/
theorem eq_rowGatherDims (d : GatherDims ⟨2, ![N, C]⟩ ⟨2, ![E, 1]⟩ ⟨2, ![E, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C]) : ∃ wf, d = rowGatherDims N E C wf := by
  obtain ⟨od, cd, ob, sb, sm, iv, ss, wf⟩ := d
  simp only at hod hcd hob hsb hsm hiv hss
  subst hod hcd hob hsb hsm hiv hss
  exact ⟨wf, rfl⟩

/-- The row gather read at `(e, c)`, for ANY record with the row gather's seven fields. -/
theorem gather_rows_apply_of_eq {α : Type} (hN : 0 < N) (d : GatherDims ⟨2, ![N, C]⟩ ⟨2, ![E, 1]⟩ ⟨2, ![E, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C]) (x : (⟨2, ![N, C]⟩ : Shape).Idx → α) (idx : IVec ⟨2, ![E, 1]⟩ w)
    (e : Fin E) (c : Fin C) :
    Host.gather d x idx (ix2 e c)
      = x (ix2 ⟨min (idx (ix2 e ⟨0, Nat.one_pos⟩)).toInt.toNat (N - 1), by omega⟩ c) := by
  obtain ⟨wf, rfl⟩ := eq_rowGatherDims d hod hcd hob hsb hsm hiv hss
  exact gather_rows_apply hN wf x idx e c

end Cert.LibRowOps
-- ==== Proof.LibVecScatter.lean ====
/-
  A scatter-add into a vector read at an entry.

  Counting how many times each of `N` bins is named by `E` bin numbers is written as: add entry `e` of an `[E]`
  vector of updates into entry `dst[e]` of an `[N]` accumulator. In StableHLO this is a `scatter` with an `add` body
  whose windows are single numbers (operand `[N]`, scatter indices `[E, 1]`, updates `[E]`; no update window axis,
  inserted window axis 0, scatter-dims-to-operand-dims `[0]`, index vector on axis 1 of the scatter indices). This file
  reads it at one entry, for all extents `N`, `E`:

  * `scatterAdd_vec_apply`: at the ideal instance (the extended reals), entry `n` of the scatter-add is the operand's
    entry `n` plus the sum over `e : Fin E` of the update's entry `e` for those `e` whose scatter index `idx (e, 0)`,
    read as a signed integer, is `n`. An update whose bin number is negative or at least `N` lands nowhere: it equals
    no `n : Fin N`.

  It is stated twice: for the record `vecScatterDims` built from the extents, and, `…_of_eq`, for ANY record whose four
  lists are the ones above (each hypothesis closes by `rfl` on a literal record), the form to rewrite with.
-/
import Idealize.ShloMosaic.PureOps.Ideal.Laws
import Idealize.ShloMosaic.Lib.ValueIdx

noncomputable section

open scoped BigOperators

namespace Cert.LibVecScatter

open Idealize.ShloMosaic Idealize.ShloMosaic.ValueIdx

variable {N E w : Nat}

/-- The one axis of the operand is inserted: it is not among the kept ones. -/
private theorem zero_not_mem_kept : (0 : Fin 1) ∉ (List.finRange 1).filter (fun a => a ∉ ([0] : List (Fin 1))) := by decide

/-- The dimension numbers of a scatter of single numbers into a vector: operand `[N]`, scatter indices `[E, 1]`,
    updates `[E]`; the updates have no window axis, the operand's one axis is inserted and is the one the scatter
    index names, and the index vector lies along axis 1 of the scatter indices. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The window of update `e` starts at the scatter index `idx (e, 0)`, read signed. -/
theorem scatter_start_zero (wf) (idx : IVec ⟨2, ![E, 1]⟩ w) (e : Fin E) :
    (vecScatterDims N E wf).start (ix1 e) idx 0 = (idx (ix2 e ⟨0, Nat.one_pos⟩)).toInt := by
  unfold ScatterDims.start
  rw [dif_pos (show (0 : Fin 1) ∈ (vecScatterDims N E wf).scatterDimsToOperandDims from List.mem_singleton.mpr rfl)]
  have hsi : (vecScatterDims N E wf).siIdx (ix1 e)
      ⟨List.idxOf (0 : Fin 1) (vecScatterDims N E wf).scatterDimsToOperandDims,
        List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

/-- The operand's axis is inserted: the window coordinate there is `0`. -/
theorem scatter_window_zero (wf) (j : (⟨1, ![E]⟩ : Shape).Idx) :
    (vecScatterDims N E wf).window j 0 = 0 := by
  unfold ScatterDims.window
  rw [dif_neg (show (0 : Fin 1) ∉ (vecScatterDims N E wf).sKept from zero_not_mem_kept)]

/-- WHERE AN UPDATE LANDS: update `e` lands at operand entry `n` exactly when its scatter index `idx (e, 0)`, read
    signed, is `n`. (A bin number outside `[0, N)` is dropped, and is no `n : Fin N`.) -/
theorem scatter_resultIdx?_iff (wf) (idx : IVec ⟨2, ![E, 1]⟩ w) (e : Fin E) (n : Fin N) :
    (vecScatterDims N E wf).resultIdx? (ix1 e) idx = some (ix1 n)
      ↔ (idx (ix2 e ⟨0, Nat.one_pos⟩)).toInt = (n.val : Int) := by
  have h0 := scatter_start_zero (N := N) wf idx e
  have w0 := scatter_window_zero (N := N) wf (ix1 e)
  unfold ScatterDims.resultIdx?
  split
  · rename_i h
    have g0 := h 0
    rw [h0, w0] at g0
    rw [Option.some.injEq]
    constructor
    · intro hf
      have e0 : ((vecScatterDims N E wf).start (ix1 e) idx 0
          + (vecScatterDims N E wf).window (ix1 e) 0).toNat = n.val := congrArg (fun f => (f 0).val) hf
      rw [h0, w0] at e0
      omega
    · intro hz
      funext a
      refine Fin.ext ?_
      match a with
      | ⟨0, _⟩ =>
        show ((vecScatterDims N E wf).start (ix1 e) idx 0
          + (vecScatterDims N E wf).window (ix1 e) 0).toNat = n.val
        rw [h0, w0]; omega
  · rename_i h
    constructor
    · intro hf; exact absurd hf (by simp)
    · intro hz
      exfalso; apply h; intro a
      match a with
      | ⟨0, _⟩ =>
        show 0 ≤ (vecScatterDims N E wf).start (ix1 e) idx 0 + (vecScatterDims N E wf).window (ix1 e) 0
          ∧ (vecScatterDims N E wf).start (ix1 e) idx 0 + (vecScatterDims N E wf).window (ix1 e) 0 < (N : Int)
        rw [h0, w0]; have := n.isLt; omega

/-- A sum over the indices of a vector is the sum over its one coordinate. -/
theorem sum_idx1 {M : Type*} [AddCommMonoid M] {n : Nat} (f : (⟨1, ![n]⟩ : Shape).Idx → M) :
    ∑ j, f j = ∑ a : Fin n, f (ix1 a) := by
  refine Fintype.sum_equiv ⟨fun j => (j 0 : Fin n), fun a => ix1 a, fun j => (eq_ix1 j).symm, fun _ => rfl⟩ _ _ fun j => ?_
  exact congrArg f (eq_ix1 j)

/-- THE VECTOR SCATTER-ADD READ AT `n`, at the ideal instance: the operand's entry plus the sum, over the updates
    `e`, of the update's entry `e` when the scatter index `idx (e, 0)`, read signed, is `n`, and `0` otherwise. -/
theorem scatterAdd_vec_apply {φ : FTy} (wf) (x : FVec Ideal ⟨1, ![N]⟩ φ) (idx : IVec ⟨2, ![E, 1]⟩ w)
    (upd : FVec Ideal ⟨1, ![E]⟩ φ) (n : Fin N) :
    Host.scatterAdd (F := Ideal) (vecScatterDims N E wf) x idx upd (ix1 n)
      = x (ix1 n)
        + ∑ e : Fin E, if (idx (ix2 e ⟨0, Nat.one_pos⟩)).toInt = (n.val : Int) then upd (ix1 e) else 0 := by
  show x (ix1 n) + ∑ j ∈ Finset.univ.filter
    (fun j => (vecScatterDims N E wf).resultIdx? j idx = some (ix1 n)), upd j = _
  congr 1
  rw [Finset.sum_filter, sum_idx1]
  refine Finset.sum_congr rfl fun e _ => ?_
  simp only [scatter_resultIdx?_iff]

/-- A record with the vector scatter's four lists IS `vecScatterDims`. -/
theorem eq_vecScatterDims (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1) : ∃ wf, d = vecScatterDims N E wf := by
  obtain ⟨uw, iw, sd, iv, wf⟩ := d
  simp only at huw hiw hsd hiv
  subst huw hiw hsd hiv
  exact ⟨wf, rfl⟩

/-- The vector scatter-add read at `n`, for ANY record with the vector scatter's four lists. -/
theorem scatterAdd_vec_apply_of_eq {φ : FTy} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1) (x : FVec Ideal ⟨1, ![N]⟩ φ) (idx : IVec ⟨2, ![E, 1]⟩ w)
    (upd : FVec Ideal ⟨1, ![E]⟩ φ) (n : Fin N) :
    Host.scatterAdd (F := Ideal) d x idx upd (ix1 n)
      = x (ix1 n)
        + ∑ e : Fin E, if (idx (ix2 e ⟨0, Nat.one_pos⟩)).toInt = (n.val : Int) then upd (ix1 e) else 0 := by
  obtain ⟨wf, rfl⟩ := eq_vecScatterDims d huw hiw hsd hiv
  exact scatterAdd_vec_apply wf x idx upd n

end Cert.LibVecScatter

end
-- ==== Proof.MeanBridge.lean ====
/-
  The neighbourhood mean of the kernel program, as a function of the features and the edge list, and its equality
  with the reference program's.

  Both programs compute, for every node `n` and feature column `c`,

      mean (n, c) = agg (n, c) / cnt n,

  where `agg` adds row `e` of the gathered feature rows `h[src e]` (a negative `src e` counted from the end) into
  row `dst e` of a zero `[100000, 128]` array, `src` and `dst` being rows 0 and 1 of the `[2, 1600000]` edge list, and
  `cnt n` is the larger of `1` and the number of edges with `dst e = n`. The two programs differ only in how the count
  is laid out: the kernel program adds ones into a `[100000]` vector, takes the maximum with ones, reshapes to
  `[100000, 1]` and broadcasts along the columns; the reference program adds `[1600000, 1]` ones into a `[100000, 1]`
  array, takes the maximum with ones and broadcasts. Read at one entry both counts are the same sum over the edges.
-/
import proofs.«161550_j70368744177918_1_alg».proof.Proof.Glue
import proofs.«161550_j70368744177918_1_alg».proof.Proof.Gen.ReferenceIdeal.Read
import proofs.«161550_j70368744177918_1_alg».proof.Proof.LibRowOps
import proofs.«161550_j70368744177918_1_alg».proof.Proof.LibVecScatter

noncomputable section

open scoped BigOperators

namespace Cert.KernelIdeal.Glue

open Cert.KernelIdeal Idealize.ShloMosaic Idealize.SL.Sem Idealize.ShloMosaic.ValueIdx
open Cert.KernelIdeal.Facts₀ Cert.KernelIdeal.Facts

variable {F : FTy → Type} [FloatOps F] [Cert.KernelIdeal.Facts]

/-! ## The two programs' counts, read at an entry -/

/-- The entry `(n, 0)` of a `[100000, 1]` column, `(e, 0)` of a `[1600000, 1]` one. -/
private abbrev z1 : Fin 1 := ⟨0, Nat.one_pos⟩

/-- The reference program scatters at the same index array as the kernel program: the destinations as a
    `[1600000, 1]` column. (The same operations on the same edge list.) -/
theorem ref_dstIdx (ei : (⟨S2x1600000, .i32⟩ : BufTy).Contents (Elt F)) :
    Cert.ReferenceIdeal.Read.val_main_v16 (F := F) ei
      = broadcastInDim S1600000x1 ![0] bcast_S1600000_S1600000x1_0 (dst (F := F) ei) := rfl

/-- The reference program's sum of the gathered rows is the kernel program's: the same operations on the same
    arguments. -/
theorem ref_agg (h : (⟨S100000x128, .f32⟩ : BufTy).Contents (Elt F)) (ei : (⟨S2x1600000, .i32⟩ : BufTy).Contents (Elt F)) :
    Cert.ReferenceIdeal.Read.val_main_v13 (F := F) h ei
      = Host.scatterAdd scatter_S100000x128_S1600000x1_S1600000x128_1_0_0_1
          (broadcastInDim S100000x128 ![] bcast_S_S100000x128 (constant S_ .f32 0x00000000#32))
          (broadcastInDim S1600000x1 ![0] bcast_S1600000_S1600000x1_0 (dst ei))
          (Host.gather gather_S100000x128_S1600000x1_S1600000x128_1_0_n_n_0_1_1128 h
            (broadcastInDim S1600000x1 ![0] bcast_S1600000_S1600000x1_0
              (select (cmpi .slt (src ei) (broadcastInDim S1600000 ![] bcast_S_S1600000 (constantI S_ 32 0#32)))
                (addi (src ei) (broadcastInDim S1600000 ![] bcast_S_S1600000 (constantI S_ 32 100000#32)))
                (src ei)))) := rfl

/-- THE COUNT OF NODE `n`, both programs': the larger of one and (zero plus) the sum over the edges `e` of one when
    the destination of `e`, read signed, is `n`. -/
def cntAt (ei : (⟨S2x1600000, .i32⟩ : BufTy).Contents (Elt Ideal)) (n : Fin 100000) : EReal :=
  max (Ideal.ofBits .f32 0x00000000#32
      + ∑ e : Fin 1600000,
          if ((broadcastInDim S1600000x1 ![0] bcast_S1600000_S1600000x1_0 (dst (F := Ideal) ei)) (ix2 e z1)).toInt
              = (n.val : Int)
          then Ideal.ofBits .f32 0x3F800000#32 else 0)
    (Ideal.ofBits .f32 0x3F800000#32)

/-- The kernel program's count column at `(n, 0)`: the reshape reads the vector at `n`, the maximum is entrywise, and
    the vector scatter-add at `n` is the sum over the edges that name `n`. -/
theorem cnt_apply (ei : (⟨S2x1600000, .i32⟩ : BufTy).Contents (Elt Ideal)) (n : Fin 100000) :
    cnt (F := Ideal) ei (ix2 n z1) = cntAt ei n := by
  unfold cnt cntAt
  rw [shapeCast_apply _ shapeCasts_S100000_S100000x1 (ix2 n z1) (ix1 n)
    (by rw [Shape.rowMajor_val_two, Shape.rowMajor_val_one]; show n.val = n.val * 1 + 0; omega)]
  rw [maximumf_apply]
  rw [Cert.LibVecScatter.scatterAdd_vec_apply_of_eq (N := 100000) (E := 1600000)
    scatter_S100000_S1600000x1_S1600000_n_0_0_1 rfl rfl rfl rfl]
  rfl

/-- The reference program's count column at `(n, 0)`: the maximum is entrywise, and the row scatter-add of a
    one-column array at `(n, 0)` is the same sum over the edges that name `n`. -/
theorem ref_cnt_apply (ei : (⟨S2x1600000, .i32⟩ : BufTy).Contents (Elt Ideal)) (n : Fin 100000) :
    Cert.ReferenceIdeal.Read.val_main_v19 (F := Ideal) ei (ix2 n z1) = cntAt ei n := by
  rw [Cert.ReferenceIdeal.Read.val_main_v19_apply]
  unfold Cert.ReferenceIdeal.Read.val_main_v17 cntAt
  rw [Cert.LibRowOps.scatterAdd_rows_apply_of_eq (N := 100000) (E := 1600000) (C := 1)
    Cert.ReferenceIdeal.scatter_S100000x1_S1600000x1_S1600000x1_1_0_0_1 rfl rfl rfl rfl]
  rfl

/-! ## The means agree -/

/-- The kernel program's mean at an entry: the quotient of the sum of gathered rows by the broadcast count there. -/
theorem mean_apply (h : (⟨S100000x128, .f32⟩ : BufTy).Contents (Elt F)) (ei : (⟨S2x1600000, .i32⟩ : BufTy).Contents (Elt F))
    (i : S100000x128.Idx) :
    mean (F := F) h ei i
      = FloatOps.hostDivf
          (Host.scatterAdd scatter_S100000x128_S1600000x1_S1600000x128_1_0_0_1
            (broadcastInDim S100000x128 ![] bcast_S_S100000x128 (constant S_ .f32 0x00000000#32))
            (broadcastInDim S1600000x1 ![0] bcast_S1600000_S1600000x1_0 (dst ei))
            (Host.gather gather_S100000x128_S1600000x1_S1600000x128_1_0_n_n_0_1_1128 h
              (broadcastInDim S1600000x1 ![0] bcast_S1600000_S1600000x1_0
                (select (cmpi .slt (src ei) (broadcastInDim S1600000 ![] bcast_S_S1600000 (constantI S_ 32 0#32)))
                  (addi (src ei) (broadcastInDim S1600000 ![] bcast_S_S1600000 (constantI S_ 32 100000#32)))
                  (src ei)))) i)
          (broadcastInDim S100000x128 ![0, 1] bcast_S100000x1_S100000x128_0_1 (cnt ei) i) := rfl

/-- THE NEIGHBOURHOOD MEANS AGREE: at every `(n, c)` both are the quotient of the same sum of gathered rows by the
    same count of node `n`. -/
theorem mean_eq (h : (⟨S100000x128, .f32⟩ : BufTy).Contents (Elt Ideal))
    (ei : (⟨S2x1600000, .i32⟩ : BufTy).Contents (Elt Ideal)) :
    mean (F := Ideal) h ei = Cert.ReferenceIdeal.Read.val_main_v21 (F := Ideal) h ei := by
  funext i
  obtain ⟨n, c, rfl⟩ : ∃ (n : Fin 100000) (c : Fin 128), i = ix2 n c := ⟨i 0, i 1, eq_ix2 i⟩
  -- the denominators: the count column broadcast along the columns, read at `(n, c)`, is the column at `(n, 0)`
  have hden : broadcastInDim S100000x128 ![0, 1] bcast_S100000x1_S100000x128_0_1 (cnt (F := Ideal) ei) (ix2 n c)
      = Cert.ReferenceIdeal.Read.val_main_v20 (F := Ideal) ei (ix2 n c) := by
    rw [Cert.ReferenceIdeal.Read.val_main_v20_apply]
    rw [broadcastInDim_apply _ bcast_S100000x1_S100000x128_0_1 (cnt (F := Ideal) ei) (ix2 n c) (ix2 n z1)
      (fun a => match a with
        | ⟨0, _⟩ => by show n.val = if (100000 : Nat) = 1 then 0 else n.val; rw [if_neg (by decide)]
        | ⟨1, _⟩ => by show 0 = if (1 : Nat) = 1 then 0 else c.val; rw [if_pos rfl])]
    have hi : Cert.ReferenceIdeal.Read.idx_main_v20 (ix2 n c) = ix2 n z1 :=
      funext fun a => Fin.ext (by match a with | ⟨0, _⟩ => rfl | ⟨1, _⟩ => rfl)
    rw [hi, cnt_apply, ref_cnt_apply]
  -- the numerators are the same function
  rw [mean_apply, Cert.ReferenceIdeal.Read.val_main_v21_apply, ref_agg, hden]

end Cert.KernelIdeal.Glue

end
-- ==== Proof.Bridge.lean ====
/-
  The two programs compute one function.

  The idealized kernel ends at the network of `KernelValue.lean`: two rectified layers and a last layer, each the dense
  update of the current features and their neighbourhood mean. The reference's result, read one operation at a time, is
  the same composition (`RefValue.lean`) with the reference's own neighbourhood mean in place of the kernel program's;
  the two means are one function of the features and the edge list (`MeanBridge.lean`).
-/
import proofs.«161550_j70368744177918_1_alg».proof.Proof.KernelValue
import proofs.«161550_j70368744177918_1_alg».proof.Proof.RefValue
import proofs.«161550_j70368744177918_1_alg».proof.Proof.MeanBridge

noncomputable section

namespace Cert.Proof.Bridge

open Idealize.ShloMosaic Cert.Sage

/-- The network of the arguments is the reference's result term of the same arguments. -/
theorem net_eq (x0 : Cert.KernelIdeal.S100000x128.Idx → EReal) (x1 x2 : Cert.KernelIdeal.S128x128.Idx → EReal)
    (x3 : Cert.KernelIdeal.S128.Idx → EReal) (x4 x5 : Cert.KernelIdeal.S128x128.Idx → EReal)
    (x6 : Cert.KernelIdeal.S128.Idx → EReal) (x7 x8 : Cert.KernelIdeal.S64x128.Idx → EReal)
    (x9 : Cert.KernelIdeal.S64.Idx → EReal)
    (x10 : (⟨Cert.KernelIdeal.S2x1600000, .i32⟩ : BufTy).Contents (Elt Ideal)) :
    Cert.KernelIdeal.KValue.net x0 x1 x2 x3 x4 x5 x6 x7 x8 x9 x10
      = Cert.ReferenceIdeal.Read.val_main_v83 (F := Ideal) x0 x1 x2 x3 x4 x5 x6 x7 x8 x9 x10 := by
  rw [Cert.ReferenceIdeal.RefValue.layer2, Cert.ReferenceIdeal.RefValue.mean2, Cert.ReferenceIdeal.RefValue.layer1,
    Cert.ReferenceIdeal.RefValue.mean1, Cert.ReferenceIdeal.RefValue.layer0]
  unfold Cert.KernelIdeal.KValue.net Cert.KernelIdeal.KValue.layer
  simp only [Cert.KernelIdeal.Glue.mean_eq]

end Cert.Proof.Bridge

end
-- ==== Proof.lean ====
/-
  Equivalence, over the extended reals, of a three-layer mean-aggregating graph convolution written as three tiled
  kernel launches among host gathers and scatter-adds, and its plain array reference.

  Each layer replaces the node features `h` (100000 nodes) by `mean(h) · Wlᵀ + h · Wrᵀ + b`, where `mean(h)` averages,
  for every node, the features of the sources of its incoming edges (at least one is counted); the first two layers
  are rectified. The kernel program computes the mean on the host and the dense update in a kernel that walks twenty
  blocks of 5000 nodes, with the matrix products on rounded inputs — a rounding that is the identity on the extended
  reals. The reference computes the same sums with whole-array operations.

  * The frames: every weakly fair execution of each program terminates without a fault and leaves the arguments
    unchanged — the launch over @main's segments for the two kernel programs, the host run for the reference.
  * `preserves`: the idealization rewrote no operation.
  * `algebraic`: the idealized kernel ends at the network of its arguments (`KernelRun.lean`, `KernelValue.lean`, over
    `Region.lean`, `Payload.lean`, `Glue.lean`), the reference at its composed term, which is the same network
    (`Bridge.lean`, over `RefValue.lean` and `MeanBridge.lean`).
-/
import proofs.«161550_j70368744177918_1_alg».proof.Defs
import proofs.«161550_j70368744177918_1_alg».proof.Proof.Gen.Kernel
import proofs.«161550_j70368744177918_1_alg».proof.Proof.Gen.Kernel.Skeleton
import proofs.«161550_j70368744177918_1_alg».proof.Proof.PatchedKernelLaunch
import proofs.«161550_j70368744177918_1_alg».proof.Proof.Gen.Kernel.Points
import proofs.«161550_j70368744177918_1_alg».proof.Proof.PatchedKernelFrame
import proofs.«161550_j70368744177918_1_alg».proof.Proof.Gen.KernelIdeal
import proofs.«161550_j70368744177918_1_alg».proof.Proof.Gen.KernelIdeal.Skeleton
import proofs.«161550_j70368744177918_1_alg».proof.Proof.PatchedKernelIdealLaunch
import proofs.«161550_j70368744177918_1_alg».proof.Proof.Gen.KernelIdeal.Points
import proofs.«161550_j70368744177918_1_alg».proof.Proof.PatchedKernelIdealFrame
import proofs.«161550_j70368744177918_1_alg».proof.Proof.Gen.ReferenceIdeal
import proofs.«161550_j70368744177918_1_alg».proof.Proof.Gen.Pre_finite_inputs
import proofs.«161550_j70368744177918_1_alg».proof.Proof.Gen.ReferenceIdeal.Run
import proofs.«161550_j70368744177918_1_alg».proof.Proof.Gen.ReferenceIdeal.Read
import proofs.«161550_j70368744177918_1_alg».proof.Proof.KernelRun
import proofs.«161550_j70368744177918_1_alg».proof.Proof.KernelValue
import proofs.«161550_j70368744177918_1_alg».proof.Proof.Bridge
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end at the network of the arguments: the kernel by its run and the fold through its
    segments, the reference by its run and the reading of its term; the arguments agree by hypothesis. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.KValue.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨((h c).1).trans (Cert.KernelIdeal.KValue.value m ρ c), (h c).2⟩) (Cert.KernelIdeal.Run.run m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10⟩ := hagree c
    rw [Cert.ReferenceIdeal.Read.val_main_v83_eq, a0, a1, a2, a3, a4, a5, a6, a7, a8, a9, a10]
    exact (Cert.Proof.Bridge.net_eq _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
